-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S64x10 .f32) (main_arg10 : FVec F S10 .f32) (main_v33 : IVec S_ 1) : IVec S_ 1 :=
  let main_v34 : FVec F S64x10 .f32 := Host.absf main_arg9
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x10 .f32) (main_arg10 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S50000x64 .f32) (main_arg1 : IVec S800000 32) (main_arg2 : IVec S800000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x10 .f32) (main_arg10 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x2 : Shape := ⟨2, ![50000, 2]⟩
abbrev S1x64 : Shape := ⟨2, ![1, 64]⟩
abbrev S1x10 : Shape := ⟨2, ![1, 10]⟩
abbrev S5000x64 : Shape := ⟨2, ![5000, 64]⟩
abbrev S5000x2 : Shape := ⟨2, ![5000, 2]⟩
abbrev S5000x1 : Shape := ⟨2, ![5000, 1]⟩
abbrev S800000x64 : Shape := ⟨2, ![800000, 64]⟩
abbrev S50000x10 : Shape := ⟨2, ![50000, 10]⟩
abbrev S5000x10 : Shape := ⟨2, ![5000, 10]⟩

abbrev nBuf : Space → Nat
  | .hbm => 95
  | .vmem => 32
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x10, .f32⟩
  | .hbm, ⟨10, _⟩ => ⟨S10, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .i1⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000, .f32⟩
  | .hbm, ⟨41, _⟩ => ⟨S_, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S50000x1, .f32⟩
  | .hbm, ⟨46, _⟩ => ⟨S50000x1, .f32⟩
  | .hbm, ⟨47, _⟩ => ⟨S50000x2, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S1x10, .f32⟩
  | .hbm, ⟨52, _⟩ => ⟨S50000x64, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x64, .f32⟩
  | .hbm, ⟨62, _⟩ => ⟨S_, .f32⟩
  | .hbm, ⟨63, _⟩ => ⟨S50000x64, .f32⟩
  | .hbm, ⟨64, _⟩ => ⟨S800000x1, .i32⟩
  | .hbm, ⟨65, _⟩ => ⟨S50000x64, .f32⟩
  | .hbm, ⟨66, _⟩ => ⟨S50000x64, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x64, .f32⟩
  | .hbm, ⟨76, _⟩ => ⟨S_, .f32⟩
  | .hbm, ⟨77, _⟩ => ⟨S50000x64, .f32⟩
  | .hbm, ⟨78, _⟩ => ⟨S800000x1, .i32⟩
  | .hbm, ⟨79, _⟩ => ⟨S50000x64, .f32⟩
  | .hbm, ⟨80, _⟩ => ⟨S50000x64, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x64, .f32⟩
  | .hbm, ⟨90, _⟩ => ⟨S_, .f32⟩
  | .hbm, ⟨91, _⟩ => ⟨S50000x64, .f32⟩
  | .hbm, ⟨92, _⟩ => ⟨S800000x1, .i32⟩
  | .hbm, ⟨93, _⟩ => ⟨S50000x64, .f32⟩
  | .hbm, ⟨94, _⟩ => ⟨S50000x10, .f32⟩
  | .local _ .vmem, ⟨0, _⟩ => ⟨S5000x64, .f32⟩
  | .local _ .vmem, ⟨1, _⟩ => ⟨S5000x64, .f32⟩
  | .local _ .vmem, ⟨2, _⟩ => ⟨S5000x2, .f32⟩
  | .local _ .vmem, ⟨3, _⟩ => ⟨S5000x2, .f32⟩
  | .local _ .vmem, ⟨4, _⟩ => ⟨S64x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x2, .f32⟩
  | .local _ .vmem, ⟨10, _⟩ => ⟨S5000x2, .f32⟩
  | .local _ .vmem, ⟨11, _⟩ => ⟨S1x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x2, .f32⟩
  | .local _ .vmem, ⟨18, _⟩ => ⟨S5000x2, .f32⟩
  | .local _ .vmem, ⟨19, _⟩ => ⟨S1x64, .f32⟩
  | .local _ .vmem, ⟨20, _⟩ => ⟨S64x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x2, .f32⟩
  | .local _ .vmem, ⟨26, _⟩ => ⟨S5000x2, .f32⟩
  | .local _ .vmem, ⟨27, _⟩ => ⟨S1x64, .f32⟩
  | .local _ .vmem, ⟨28, _⟩ => ⟨S64x10, .f32⟩
  | .local _ .vmem, ⟨29, _⟩ => ⟨S1x10, .f32⟩
  | .local _ .vmem, ⟨30, _⟩ => ⟨S5000x10, .f32⟩
  | .local _ .vmem, ⟨31, _⟩ => ⟨S5000x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v9 : Ref sig .tc := ⟨.hbm, 27, rfl⟩
abbrev main_cst_4 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_6 : Ref sig .tc := ⟨.hbm, 34, rfl⟩
abbrev main_v14 : Ref sig .tc := ⟨.hbm, 35, rfl⟩
abbrev main_v15 : Ref sig .tc := ⟨.hbm, 36, rfl⟩
abbrev main_cst_7 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_8 : Ref sig .tc := ⟨.hbm, 41, rfl⟩
abbrev main_call1_v0 : Ref sig .tc := ⟨.hbm, 42, rfl⟩
abbrev main_call1_v1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c : Ref sig .tc := ⟨.hbm, 53, rfl⟩
abbrev main_v28 : Ref sig .tc := ⟨.hbm, 54, rfl⟩
abbrev main_v29 : Ref sig .tc := ⟨.hbm, 55, rfl⟩
abbrev main_c_9 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_10 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_11 : Ref sig .tc := ⟨.hbm, 67, rfl⟩
abbrev main_v39 : Ref sig .tc := ⟨.hbm, 68, rfl⟩
abbrev main_v40 : Ref sig .tc := ⟨.hbm, 69, rfl⟩
abbrev main_c_12 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_13 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_14 : Ref sig .tc := ⟨.hbm, 81, rfl⟩
abbrev main_v50 : Ref sig .tc := ⟨.hbm, 82, rfl⟩
abbrev main_v51 : Ref sig .tc := ⟨.hbm, 83, rfl⟩
abbrev main_c_15 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_16 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x10 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  concatenates_S50000x1_S50000x1_S50000x2_d1 : Shape.Concatenates [S50000x1, S50000x1] S50000x2 1
  shapeCasts_S64_S1x64 : S64.ShapeCasts S1x64
  shapeCasts_S10_S1x10 : S10.ShapeCasts S1x10
  inb_S5000x2_S5000x1_0_0 : ∀ a, (![0, 0] : Fin 2 → Nat) a + S5000x1.size a ≤ S5000x2.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S50000x64 : S_.BroadcastsInDim S50000x64 (![] : Fin 0 → Fin S50000x64.rank)
  inb_S5000x2_S5000x1_0_1 : ∀ a, (![0, 1] : Fin 2 → Nat) a + S5000x1.size a ≤ S5000x2.size a
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x10_S5000x10_1_0_0_1_n_n_wf : DotDims.WF S5000x64 S64x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x2.size a ≤ S50000x2.size a
  hwx0_1 : ∀ i : grid0.Coords, EltTy.bits .f32 = 32 ∨ (Rect.block (s := S50000x2) S5000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x2.size a ≤ S50000x2.size a
  hwx1_1 : ∀ i : grid1.Coords, EltTy.bits .f32 = 32 ∨ (Rect.block (s := S50000x2) S5000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x2.size a ≤ S50000x2.size a
  hwx2_1 : ∀ i : grid2.Coords, EltTy.bits .f32 = 32 ∨ (Rect.block (s := S50000x2) S5000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x2.size a ≤ S50000x2.size a
  hwx3_1 : ∀ i : grid3.Coords, EltTy.bits .f32 = 32 ∨ (Rect.block (s := S50000x2) S5000x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x10.size a ≤ S64x10.size a
  hwx3_3 : ∀ i : grid3.Coords, EltTy.bits .f32 = 32 ∨ (Rect.block (s := S64x10) S64x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x10.size a ≤ S50000x10.size a
  hwx3_5 : ∀ i : grid3.Coords, EltTy.bits .f32 = 32 ∨ (Rect.block (s := S50000x10) S5000x10.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x10_S5000x10_1_0_0_1_n_n : DotDims S5000x64 S64x10 S5000x10 where
  lhsContracting := [1]
  rhsContracting := [0]
  lhsNonContracting := [0]
  rhsNonContracting := [1]
  lhsBatch := []
  rhsBatch := []
  wf := dot_S5000x64_S64x10_S5000x10_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S5000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S5000x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S64x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v26) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S5000x10.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S50000x10 : Shape := ⟨2, ![50000, 10]⟩
abbrev S1x10 : Shape := ⟨2, ![1, 10]⟩

abbrev nBuf : Space → Nat
  | .hbm => 121
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x10, .f32⟩
  | .hbm, ⟨10, _⟩ => ⟨S10, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .i1⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000, .f32⟩
  | .hbm, ⟨41, _⟩ => ⟨S_, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S50000x1, .f32⟩
  | .hbm, ⟨46, _⟩ => ⟨S50000x64, .f32⟩
  | .hbm, ⟨47, _⟩ => ⟨S50000x64, .f32⟩
  | .hbm, ⟨48, _⟩ => ⟨S50000x64, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x64, .f32⟩
  | .hbm, ⟨58, _⟩ => ⟨S_, .f32⟩
  | .hbm, ⟨59, _⟩ => ⟨S50000x64, .f32⟩
  | .hbm, ⟨60, _⟩ => ⟨S800000x1, .i32⟩
  | .hbm, ⟨61, _⟩ => ⟨S50000x64, .f32⟩
  | .hbm, ⟨62, _⟩ => ⟨S50000x1, .f32⟩
  | .hbm, ⟨63, _⟩ => ⟨S50000x64, .f32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S50000x64, .f32⟩
  | .hbm, ⟨69, _⟩ => ⟨S50000x1, .f32⟩
  | .hbm, ⟨70, _⟩ => ⟨S50000x64, .f32⟩
  | .hbm, ⟨71, _⟩ => ⟨S50000x64, .f32⟩
  | .hbm, ⟨72, _⟩ => ⟨S50000x64, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x64, .f32⟩
  | .hbm, ⟨82, _⟩ => ⟨S_, .f32⟩
  | .hbm, ⟨83, _⟩ => ⟨S50000x64, .f32⟩
  | .hbm, ⟨84, _⟩ => ⟨S800000x1, .i32⟩
  | .hbm, ⟨85, _⟩ => ⟨S50000x64, .f32⟩
  | .hbm, ⟨86, _⟩ => ⟨S50000x1, .f32⟩
  | .hbm, ⟨87, _⟩ => ⟨S50000x64, .f32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | .hbm, ⟨92, _⟩ => ⟨S50000x64, .f32⟩
  | .hbm, ⟨93, _⟩ => ⟨S50000x1, .f32⟩
  | .hbm, ⟨94, _⟩ => ⟨S50000x64, .f32⟩
  | .hbm, ⟨95, _⟩ => ⟨S50000x64, .f32⟩
  | .hbm, ⟨96, _⟩ => ⟨S50000x64, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x64, .f32⟩
  | .hbm, ⟨106, _⟩ => ⟨S_, .f32⟩
  | .hbm, ⟨107, _⟩ => ⟨S50000x64, .f32⟩
  | .hbm, ⟨108, _⟩ => ⟨S800000x1, .i32⟩
  | .hbm, ⟨109, _⟩ => ⟨S50000x64, .f32⟩
  | .hbm, ⟨110, _⟩ => ⟨S50000x1, .f32⟩
  | .hbm, ⟨111, _⟩ => ⟨S50000x64, .f32⟩
  | .hbm, ⟨112, _⟩ => ⟨S50000x64, .f32⟩
  | .hbm, ⟨113, _⟩ => ⟨S1x64, .f32⟩
  | .hbm, ⟨114, _⟩ => ⟨S50000x64, .f32⟩
  | .hbm, ⟨115, _⟩ => ⟨S50000x64, .f32⟩
  | .hbm, ⟨116, _⟩ => ⟨S50000x64, .f32⟩
  | .hbm, ⟨117, _⟩ => ⟨S50000x10, .f32⟩
  | .hbm, ⟨118, _⟩ => ⟨S1x10, .f32⟩
  | .hbm, ⟨119, _⟩ => ⟨S50000x10, .f32⟩
  | .hbm, ⟨120, _⟩ => ⟨S50000x10, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v9 : Ref sig .tc := ⟨.hbm, 27, rfl⟩
abbrev main_cst_4 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_6 : Ref sig .tc := ⟨.hbm, 34, rfl⟩
abbrev main_v14 : Ref sig .tc := ⟨.hbm, 35, rfl⟩
abbrev main_v15 : Ref sig .tc := ⟨.hbm, 36, rfl⟩
abbrev main_cst_7 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_8 : Ref sig .tc := ⟨.hbm, 41, rfl⟩
abbrev main_call1_v0 : Ref sig .tc := ⟨.hbm, 42, rfl⟩
abbrev main_call1_v1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c : Ref sig .tc := ⟨.hbm, 49, rfl⟩
abbrev main_v24 : Ref sig .tc := ⟨.hbm, 50, rfl⟩
abbrev main_v25 : Ref sig .tc := ⟨.hbm, 51, rfl⟩
abbrev main_c_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_10 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_11 : Ref sig .tc := ⟨.hbm, 73, rfl⟩
abbrev main_v45 : Ref sig .tc := ⟨.hbm, 74, rfl⟩
abbrev main_v46 : Ref sig .tc := ⟨.hbm, 75, rfl⟩
abbrev main_c_12 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_13 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_c_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_16 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x10_S50000x10_1_0_0_1_n_n_wf : DotDims.WF S50000x64 S64x10 S50000x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x10_S50000x10_1_0_0_1_n_n : DotDims S50000x64 S64x10 S50000x10 where
  lhsContracting := [1]
  rhsContracting := [0]
  lhsNonContracting := [0]
  rhsNonContracting := [1]
  lhsBatch := []
  rhsBatch := []
  wf := dot_S50000x64_S64x10_S50000x10_1_0_0_1_n_n_wf

class Facts : Prop extends Facts₀ where

variable [Facts]
-- ==== Proof.RunNamed.lean ====
/-
  The kernel program's run with its result named.

  Every weakly fair execution of the program ends, without a fault, with the argument arrays as launched and the
  result array at the contents the last kernel region leaves in it: the contents after the last region, read at the
  result's buffer. The statement is the frame's with one more conjunct; the proof is the frame's launch over the
  same segments, the final state read at one more buffer.
-/
import proofs.«171301_j45595372815203_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments unchanged. -/
theorem run_named : θ_run defs (onTc (τ := τ) (main (F := F))) ⟨m, fun _ => 0, ρ⟩ (fun r => ∀ c : Dev nD,
      r.2.mem ((c.tc : Thread nD τ).loc main_v60) = W12 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v60 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.Named

end
-- ==== Proof.Spec.lean ====
/-
  The three dense stages of a three-layer graph convolution, row by row.

  Every stage maps a table of node rows to a table of node rows, and row r of the result depends on row r of the
  operands only (and on the small weight and bias tables). With ns = column 0 and nd = column 1 of the pair table
  (the inverse square roots of the source and destination degrees):
    first stage   out (r, c) = Σ_k (x (r, k) · ns r) · W (k, c)
    middle stage  out (r, c) = Σ_k (tanh (a (r, k) · nd r + b k) · ns r) · W (k, c)
    last stage    out (r, c) = (Σ_k tanh (a (r, k) · nd r + b k) · W (k, c)) + bf c
  The number of rows is a parameter: the same formula reads a block of 5000 rows and the whole table of 50000.
-/
import Idealize.ShloMosaic.PureOps.Ideal
import Idealize.ShloMosaic.Lib.ValueIdx

noncomputable section

namespace Cert.Gcn

open Idealize.ShloMosaic Idealize.ShloMosaic.ValueIdx
open scoped BigOperators

/-- A table of extended reals with `a` rows and `b` columns. -/
abbrev Tab (a b : Nat) : Type := FVec Ideal (⟨2, ![a, b]⟩ : Shape) .f32

/-- First stage at row `r`, column `c`. -/
def firstAt {n : Nat} (x : Tab n 64) (np : Tab n 2) (W : Tab 64 64) (r : Fin n) (c : Fin 64) : EReal :=
  ∑ k : Fin 64, (x (ix2 r k) * np (ix2 r (0 : Fin 2))) * W (ix2 k c)

/-- Middle stage at row `r`, column `c`. -/
def middleAt {n : Nat} (a : Tab n 64) (np : Tab n 2) (b : Tab 1 64) (W : Tab 64 64) (r : Fin n) (c : Fin 64) : EReal :=
  ∑ k : Fin 64, (Ideal.tanh (a (ix2 r k) * np (ix2 r (1 : Fin 2)) + b (ix2 (0 : Fin 1) k)) * np (ix2 r (0 : Fin 2))) * W (ix2 k c)

/-- Last stage at row `r`, column `c`. -/
def lastAt {n : Nat} (a : Tab n 64) (np : Tab n 2) (b : Tab 1 64) (W : Tab 64 10) (bf : Tab 1 10) (r : Fin n) (c : Fin 10) : EReal :=
  (∑ k : Fin 64, Ideal.tanh (a (ix2 r k) * np (ix2 r (1 : Fin 2)) + b (ix2 (0 : Fin 1) k)) * W (ix2 k c)) + bf (ix2 (0 : Fin 1) c)

/-- The first stage as a table. -/
def first {n : Nat} (x : Tab n 64) (np : Tab n 2) (W : Tab 64 64) : Tab n 64 :=
  fun i => firstAt x np W ⟨(i 0).val, (i 0).isLt⟩ ⟨(i 1).val, (i 1).isLt⟩

/-- The middle stage as a table. -/
def middle {n : Nat} (a : Tab n 64) (np : Tab n 2) (b : Tab 1 64) (W : Tab 64 64) : Tab n 64 :=
  fun i => middleAt a np b W ⟨(i 0).val, (i 0).isLt⟩ ⟨(i 1).val, (i 1).isLt⟩

/-- The last stage as a table. -/
def last {n : Nat} (a : Tab n 64) (np : Tab n 2) (b : Tab 1 64) (W : Tab 64 10) (bf : Tab 1 10) : Tab n 10 :=
  fun i => lastAt a np b W bf ⟨(i 0).val, (i 0).isLt⟩ ⟨(i 1).val, (i 1).isLt⟩

theorem first_ix2 {n : Nat} (x : Tab n 64) (np : Tab n 2) (W : Tab 64 64) (r : Fin n) (c : Fin 64) :
    first x np W (ix2 r c) = firstAt x np W r c := rfl

theorem middle_ix2 {n : Nat} (a : Tab n 64) (np : Tab n 2) (b : Tab 1 64) (W : Tab 64 64) (r : Fin n) (c : Fin 64) :
    middle a np b W (ix2 r c) = middleAt a np b W r c := rfl

theorem last_ix2 {n : Nat} (a : Tab n 64) (np : Tab n 2) (b : Tab 1 64) (W : Tab 64 10) (bf : Tab 1 10) (r : Fin n) (c : Fin 10) :
    last a np b W bf (ix2 r c) = lastAt a np b W bf r c := rfl

/-! ## Row locality: a block of rows of a stage is the stage of the blocks of rows

  `X` has `N` rows, `x` has `n`; if row `r` of `x` is row `R` of `X` (entry by entry, for the two row tables), the
  stage's entry at `(R, c)` over the big tables is its entry at `(r, c)` over the small ones. -/

theorem firstAt_rows {N n : Nat} (X : Tab N 64) (NP : Tab N 2) (x : Tab n 64) (np : Tab n 2) (W : Tab 64 64)
    (R : Fin N) (r : Fin n) (c : Fin 64) (hx : ∀ k, x (ix2 r k) = X (ix2 R k)) (hp : ∀ k, np (ix2 r k) = NP (ix2 R k)) :
    firstAt x np W r c = firstAt X NP W R c := by
  unfold firstAt
  exact Finset.sum_congr rfl fun k _ => by rw [hx k, hp 0]

theorem middleAt_rows {N n : Nat} (A : Tab N 64) (NP : Tab N 2) (a : Tab n 64) (np : Tab n 2) (b : Tab 1 64) (W : Tab 64 64)
    (R : Fin N) (r : Fin n) (c : Fin 64) (ha : ∀ k, a (ix2 r k) = A (ix2 R k)) (hp : ∀ k, np (ix2 r k) = NP (ix2 R k)) :
    middleAt a np b W r c = middleAt A NP b W R c := by
  unfold middleAt
  exact Finset.sum_congr rfl fun k _ => by rw [ha k, hp 0, hp 1]

theorem lastAt_rows {N n : Nat} (A : Tab N 64) (NP : Tab N 2) (a : Tab n 64) (np : Tab n 2) (b : Tab 1 64) (W : Tab 64 10) (bf : Tab 1 10)
    (R : Fin N) (r : Fin n) (c : Fin 10) (ha : ∀ k, a (ix2 r k) = A (ix2 R k)) (hp : ∀ k, np (ix2 r k) = NP (ix2 R k)) :
    lastAt a np b W bf r c = lastAt A NP b W bf R c := by
  unfold lastAt
  exact congrArg (· + bf (ix2 (0 : Fin 1) c)) (Finset.sum_congr rfl fun k _ => by rw [ha k, hp 1])

end Cert.Gcn

end
-- ==== Proof.KModel.lean ====
/-
  The kernel program's result as a composition of named pieces: the two degree norms side by side in a pair table, the
  bias rows, the neighbour sum on the host, and the three row-by-row stages of `Spec.lean` the kernel regions compute.
-/
import proofs.«171301_j45595372815203_1_alg».proof.Proof.Gen.KernelIdeal
import proofs.«171301_j45595372815203_1_alg».proof.Proof.Spec

noncomputable section

namespace Cert.KernelIdeal.Model

open Cert.KernelIdeal Cert.KernelIdeal.Gen Cert.Gcn
open Idealize.ShloMosaic Idealize.ShloMosaic.TcCoe Idealize.SL.Sem

/-- How many edges name each node: ones scattered and added at an index vector. -/
def deg (idx : IVec S800000 32) : FVec Ideal S50000 .f32 :=
  Host.scatterAdd scatter_S50000_S800000x1_S800000_n_0_0_1 (broadcastInDim S50000 ![] bcast_S_S50000 (constant (F := Ideal) S_ .f32 0x00000000#32)) (broadcastInDim S800000x1 ![0] bcast_S800000_S800000x1_0 idx) (broadcastInDim S800000 ![] bcast_S_S800000 (constant (F := Ideal) S_ .f32 0x3F800000#32))

/-- The inverse square root of the degree where it is positive, zero elsewhere. -/
def nrm (idx : IVec S800000 32) : FVec Ideal S50000 .f32 :=
  select (cmpf .ogt (deg idx) (broadcastInDim S50000 ![] bcast_S_S50000 (constant (F := Ideal) S_ .f32 0x00000000#32))) (Host.rsqrt (maximumf (deg idx) (broadcastInDim S50000 ![] bcast_S_S50000 (constant (F := Ideal) S_ .f32 0x3F800000#32)))) (broadcastInDim S50000 ![] bcast_S_S50000 (id (constant (F := Ideal) S_ .f32 0x00000000#32)))

/-- A negative source index counted from the end. -/
def wrap (s : IVec S800000 32) : IVec S800000 32 :=
  select (cmpi .slt s (broadcastInDim S800000 ![] bcast_S_S800000 (constantI S_ 32 0#32))) (addi s (broadcastInDim S800000 ![] bcast_S_S800000 (constantI S_ 32 50000#32))) s

/-- The neighbour sum: rows gathered at the source indices, scattered and added at the destination indices. -/
def agg (h : FVec Ideal S50000x64 .f32) (s d : IVec S800000 32) : FVec Ideal S50000x64 .f32 :=
  Host.scatterAdd scatter_S50000x64_S800000x1_S800000x64_1_0_0_1 (broadcastInDim S50000x64 ![] bcast_S_S50000x64 (constant (F := Ideal) S_ .f32 0x00000000#32)) (broadcastInDim S800000x1 ![0] bcast_S800000_S800000x1_0 d) (Host.gather gather_S50000x64_S800000x1_S800000x64_1_0_n_n_0_1_164 h (broadcastInDim S800000x1 ![0] bcast_S800000_S800000x1_0 (wrap s)))

/-- The pair table: source norm in column 0, destination norm in column 1. -/
def pair (s d : IVec S800000 32) : FVec Ideal S50000x2 .f32 :=
  concatenate S50000x2 1 [⟨S50000x1, broadcastInDim S50000x1 ![0] bcast_S50000_S50000x1_0 (nrm s)⟩, ⟨S50000x1, broadcastInDim S50000x1 ![0] bcast_S50000_S50000x1_0 (nrm d)⟩] concatenates_S50000x1_S50000x1_S50000x2_d1

/-- A bias vector as a one-row table. -/
def row64 (b : FVec Ideal S64 .f32) : FVec Ideal S1x64 .f32 := shapeCast S1x64 b shapeCasts_S64_S1x64

/-- The output bias as a one-row table. -/
def row10 (b : FVec Ideal S10 .f32) : FVec Ideal S1x10 .f32 := shapeCast S1x10 b shapeCasts_S10_S1x10

/-- The first region's array. -/
def h1 (x : FVec Ideal S50000x64 .f32) (s d : IVec S800000 32) (W1 : FVec Ideal S64x64 .f32) : FVec Ideal S50000x64 .f32 :=
  first x (pair s d) W1

/-- A middle region's array from the previous region's. -/
def hmid (h : FVec Ideal S50000x64 .f32) (s d : IVec S800000 32) (b : FVec Ideal S64 .f32) (W : FVec Ideal S64x64 .f32) : FVec Ideal S50000x64 .f32 :=
  middle (agg h s d) (pair s d) (row64 b) W

/-- The last region's array. -/
def hout (h : FVec Ideal S50000x64 .f32) (s d : IVec S800000 32) (b : FVec Ideal S64 .f32) (W : FVec Ideal S64x10 .f32) (bf : FVec Ideal S10 .f32) : FVec Ideal S50000x10 .f32 :=
  last (agg h s d) (pair s d) (row64 b) W (row10 bf)

/-- The whole network. -/
def result (x : FVec Ideal S50000x64 .f32) (s d : IVec S800000 32) (W1 : FVec Ideal S64x64 .f32) (b1 : FVec Ideal S64 .f32)
    (W2 : FVec Ideal S64x64 .f32) (b2 : FVec Ideal S64 .f32) (W3 : FVec Ideal S64x64 .f32) (b3 : FVec Ideal S64 .f32)
    (Wfc : FVec Ideal S64x10 .f32) (bfc : FVec Ideal S10 .f32) : FVec Ideal S50000x10 .f32 :=
  hout (hmid (hmid (h1 x s d W1) s d b1 W2) s d b2 W3) s d b3 Wfc bfc

end Cert.KernelIdeal.Model

end
-- ==== Proof.LibPlainDot.lean ====
/-
  A plain matrix product read at an index.

  For dimension numbers that contract the second axis of an [M, K] table with the first axis of a [K, N] table and keep
  the other two axes in order, the sum over the contraction index of the operands' products is the familiar
  Σ_k lhs (r, k) · rhs (k, c), with k ranging over `Fin K`. The four hypotheses say where the dimension numbers send
  an output index (r, c) and a contraction index: they hold by computation for every such record.
-/
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

/-- The contraction sum of a plain [M, K] × [K, N] product at output index `i`, over `k : Fin K`. -/
theorem sum_contr_eq {M K N : Nat} {R : Type*} [AddCommMonoid R] [Mul R]
    (d : DotDims ⟨2, ![M, K]⟩ ⟨2, ![K, N]⟩ ⟨2, ![M, N]⟩) (hr : d.contr.rank = 1)
    (hs : d.contr.size ⟨0, by omega⟩ = K)
    (l0 : ∀ (i : (⟨2, ![M, N]⟩ : Shape).Idx) (q : d.contr.Idx), (d.lhsIdx i q 0).val = (i 0).val)
    (l1 : ∀ (i : (⟨2, ![M, N]⟩ : Shape).Idx) (q : d.contr.Idx), (d.lhsIdx i q 1).val = (q ⟨0, by omega⟩).val)
    (r0 : ∀ (i : (⟨2, ![M, N]⟩ : Shape).Idx) (q : d.contr.Idx), (d.rhsIdx i q 0).val = (q ⟨0, by omega⟩).val)
    (r1 : ∀ (i : (⟨2, ![M, N]⟩ : Shape).Idx) (q : d.contr.Idx), (d.rhsIdx i q 1).val = (i 1).val)
    (lhs : (⟨2, ![M, K]⟩ : Shape).Idx → R) (rhs : (⟨2, ![K, N]⟩ : Shape).Idx → R) (i : (⟨2, ![M, N]⟩ : Shape).Idx) :
    ∑ q : d.contr.Idx, lhs (d.lhsIdx i q) * rhs (d.rhsIdx i q) = ∑ k : Fin K, lhs (ix2 (i 0) k) * rhs (ix2 k (i 1)) := by
  rw [← Equiv.sum_comp (contrEquiv1 d K hr hs).symm]
  refine Finset.sum_congr rfl fun k _ => ?_
  have hk := contrEquiv1_symm_val d K hr hs k
  have el : d.lhsIdx i ((contrEquiv1 d K hr hs).symm k) = ix2 (i 0) k := funext fun a => Fin.ext (by
    match a with
    | ⟨0, _⟩ => exact l0 _ _
    | ⟨1, _⟩ => exact (l1 _ _).trans hk)
  have er : d.rhsIdx i ((contrEquiv1 d K hr hs).symm k) = ix2 k (i 1) := funext fun a => Fin.ext (by
    match a with
    | ⟨0, _⟩ => exact (r0 _ _).trans hk
    | ⟨1, _⟩ => exact r1 _ _)
  exact congrArg₂ (· * ·) (congrArg lhs el) (congrArg rhs er)

end Idealize.ShloMosaic.PlainDot

end
-- ==== Proof.LibColumnLayout.lean ====
/-
  A column kept as a table of one column, and spread over several columns.

  Reducing a table along its rows and keeping the reduced axis gives an [a, 1] table; it is the [a] vector recast, and
  spreading it over b columns repeats each row's one entry: two layout facts read at an index.
-/
import Idealize.ShloMosaic.Lib.Pipeline.Value
import Idealize.ShloMosaic.Lib.ValueIdx

noncomputable section

namespace Idealize.ShloMosaic.ColumnLayout

open Idealize.ShloMosaic Idealize.ShloMosaic.ValueIdx

variable {α : Type}

/-- An `[a]` vector cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` table broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout

end
-- ==== Proof.Payload.lean ====
/-
  What each kernel body stores, entry by entry.

  Each body loads a block of 5000 node rows, the matching 5000 rows of the pair table (one column of it at a time),
  the small weight and bias tables, and stores one matrix product. Rounding a factor to a shorter float format is the
  identity on extended reals and the product into a zero accumulator is the plain sum over the contracted index,
  so each stored block is the stage of `Spec.lean` at 5000 rows, with the loaded columns of the pair table put
  back side by side.
-/
import proofs.«171301_j45595372815203_1_alg».proof.Proof.Gen.KernelIdeal.Skeleton
import proofs.«171301_j45595372815203_1_alg».proof.Proof.Spec
import proofs.«171301_j45595372815203_1_alg».proof.Proof.LibPlainDot
import proofs.«171301_j45595372815203_1_alg».proof.Proof.LibColumnLayout
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.Gcn
open Idealize.ShloMosaic Idealize.ShloMosaic.ValueIdx
open scoped BigOperators

/-! ## The two products' dimension numbers send (r, c) and k to (r, k) and (k, c) -/

theorem l64_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem l64_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem r64_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem r64_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem l10_0 (i : S5000x10.Idx) (q : dot_S5000x64_S64x10_S5000x10_1_0_0_1_n_n.contr.Idx) :
    (dot_S5000x64_S64x10_S5000x10_1_0_0_1_n_n.lhsIdx i q 0).val = (i 0).val := by
  unfold DotDims.lhsIdx
  rw [dif_neg (show ¬(0 : Fin S5000x64.rank) ∈ dot_S5000x64_S64x10_S5000x10_1_0_0_1_n_n.lhsBatch by decide), dif_pos (show (0 : Fin S5000x64.rank) ∈ dot_S5000x64_S64x10_S5000x10_1_0_0_1_n_n.lhsNonContracting by decide)]
  rfl
theorem l10_1 (i : S5000x10.Idx) (q : dot_S5000x64_S64x10_S5000x10_1_0_0_1_n_n.contr.Idx) :
    (dot_S5000x64_S64x10_S5000x10_1_0_0_1_n_n.lhsIdx i q 1).val = (q ⟨0, by decide⟩).val :=
  dot_S5000x64_S64x10_S5000x10_1_0_0_1_n_n.lhsIdx_val_of_single rfl i q
theorem r10_0 (i : S5000x10.Idx) (q : dot_S5000x64_S64x10_S5000x10_1_0_0_1_n_n.contr.Idx) :
    (dot_S5000x64_S64x10_S5000x10_1_0_0_1_n_n.rhsIdx i q 0).val = (q ⟨0, by decide⟩).val :=
  dot_S5000x64_S64x10_S5000x10_1_0_0_1_n_n.rhsIdx_val_of_single rfl i q
theorem r10_1 (i : S5000x10.Idx) (q : dot_S5000x64_S64x10_S5000x10_1_0_0_1_n_n.contr.Idx) :
    (dot_S5000x64_S64x10_S5000x10_1_0_0_1_n_n.rhsIdx i q 1).val = (i 1).val := by
  unfold DotDims.rhsIdx
  rw [dif_neg (show ¬(1 : Fin S64x10.rank) ∈ dot_S5000x64_S64x10_S5000x10_1_0_0_1_n_n.rhsBatch by decide), dif_pos (show (1 : Fin S64x10.rank) ∈ dot_S5000x64_S64x10_S5000x10_1_0_0_1_n_n.rhsNonContracting by decide)]
  rfl

/-- The product of a [5000,64] block with a [64,64] table into the zero accumulator, at (p, q). -/
theorem prod64 (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) :=
  (Ideal.matmul_constant_zero_apply _ _ l r (ix2 p q)).trans
    (PlainDot.sum_contr_eq dot_S5000x64_S64x64_S5000x64_1_0_0_1_n_n rfl rfl l64_0 l64_1 r64_0 r64_1 l r (ix2 p q))

/-- The product of a [5000,64] block with a [64,10] table into the zero accumulator, at (p, q). -/
theorem prod10 (l : FVec Ideal S5000x64 .bf16) (r : FVec Ideal S64x10 .bf16) (p : Fin 5000) (q : Fin 10) :
    matmul dot_S5000x64_S64x10_S5000x10_1_0_0_1_n_n none l r (constant S5000x10 .f32 0x00000000#32) (ix2 p q)
      = ∑ k : Fin 64, l (ix2 p k) * r (ix2 k q) :=
  (Ideal.matmul_constant_zero_apply _ _ l r (ix2 p q)).trans
    (PlainDot.sum_contr_eq dot_S5000x64_S64x10_S5000x10_1_0_0_1_n_n rfl rfl l10_0 l10_1 r10_0 r10_1 l r (ix2 p q))

/-- A column [5000,1] spread over 64 columns, at (p, k). -/
theorem col_spread (v : FVec Ideal S5000x1 .f32) (p : Fin 5000) (k : Fin 64) :
    broadcastTo S5000x64 (shapeCast S5000x1 v shapeCasts_S5000x1_S5000x1) broadcasts_S5000x1_S5000x64 (ix2 p k) = v (ix2 p (0 : Fin 1)) := by
  rw [shapeCast_self]
  exact ColumnLayout.broadcastTo_a1_ab_apply v broadcasts_S5000x1_S5000x64 p k

/-- A row [1,64] spread over 5000 rows, at (p, k). -/
theorem row_spread64 (v : FVec Ideal S1x64 .f32) (p : Fin 5000) (k : Fin 64) :
    broadcastTo S5000x64 (shapeCast S1x64 v shapeCasts_S1x64_S1x64) broadcasts_S1x64_S5000x64 (ix2 p k) = v (ix2 (0 : Fin 1) k) := by
  rw [shapeCast_self]
  exact broadcastTo_1b_ab_apply v broadcasts_S1x64_S5000x64 p k

/-- A row [1,10] spread over 5000 rows, at (p, k). -/
theorem row_spread10 (v : FVec Ideal S1x10 .f32) (p : Fin 5000) (k : Fin 10) :
    broadcastTo S5000x10 (shapeCast S1x10 v shapeCasts_S1x10_S1x10) broadcasts_S1x10_S5000x10 (ix2 p k) = v (ix2 (0 : Fin 1) k) := by
  rw [shapeCast_self]
  exact broadcastTo_1b_ab_apply v broadcasts_S1x10_S5000x10 p k

/-! ## The three payloads -/

/-- The first kernel's stored block at (p, q): rows of the node block scaled by the loaded column, times the weights. -/
theorem first_payload (v0 : Vec Ideal S5000x1 .f32) (v2 : Vec Ideal S5000x64 .f32) (v6 : Vec Ideal S64x64 .f32) (p : Fin 5000) (q : Fin 64) :
    k0_pay1 (F := Ideal) v0 v2 v6 (ix2 p q) = ∑ k : Fin 64, (v2 (ix2 p k) * v0 (ix2 p (0 : Fin 1))) * v6 (ix2 k q) := by
  unfold k0_pay1
  refine (prod64 _ _ p q).trans ?_
  refine Finset.sum_congr rfl fun k _ => ?_
  exact congrArg (fun z => (v2 (ix2 p k) * z) * v6 (ix2 k q)) (col_spread v0 p k)

/-- The middle kernels' stored block at (p, q) (`vd` the destination column, `vs` the source column). -/
theorem middle_payload1 (vd vs : Vec Ideal S5000x1 .f32) (a : Vec Ideal S5000x64 .f32) (b : Vec Ideal S1x64 .f32) (w : Vec Ideal S64x64 .f32) (p : Fin 5000) (q : Fin 64) :
    k1_pay1 (F := Ideal) vd vs a b w (ix2 p q)
      = ∑ k : Fin 64, (Ideal.tanh (a (ix2 p k) * vd (ix2 p (0 : Fin 1)) + b (ix2 (0 : Fin 1) k)) * vs (ix2 p (0 : Fin 1))) * w (ix2 k q) := by
  unfold k1_pay1
  refine (prod64 _ _ p q).trans ?_
  refine Finset.sum_congr rfl fun k _ => ?_
  show (Ideal.tanh (shapeCast S5000x64 a shapeCasts_S5000x64_S5000x64 (ix2 p k) * broadcastTo S5000x64 (shapeCast S5000x1 vd shapeCasts_S5000x1_S5000x1) broadcasts_S5000x1_S5000x64 (ix2 p k)
      + broadcastTo S5000x64 (shapeCast S1x64 b shapeCasts_S1x64_S1x64) broadcasts_S1x64_S5000x64 (ix2 p k))
    * broadcastTo S5000x64 (shapeCast S5000x1 vs shapeCasts_S5000x1_S5000x1) broadcasts_S5000x1_S5000x64 (ix2 p k)) * w (ix2 k q) = _
  rw [col_spread vd p k, col_spread vs p k, row_spread64 b p k, shapeCast_self]

theorem middle_payload2 (vd vs : Vec Ideal S5000x1 .f32) (a : Vec Ideal S5000x64 .f32) (b : Vec Ideal S1x64 .f32) (w : Vec Ideal S64x64 .f32) (p : Fin 5000) (q : Fin 64) :
    k2_pay1 (F := Ideal) vd vs a b w (ix2 p q)
      = ∑ k : Fin 64, (Ideal.tanh (a (ix2 p k) * vd (ix2 p (0 : Fin 1)) + b (ix2 (0 : Fin 1) k)) * vs (ix2 p (0 : Fin 1))) * w (ix2 k q) := by
  unfold k2_pay1
  refine (prod64 _ _ p q).trans ?_
  refine Finset.sum_congr rfl fun k _ => ?_
  show (Ideal.tanh (shapeCast S5000x64 a shapeCasts_S5000x64_S5000x64 (ix2 p k) * broadcastTo S5000x64 (shapeCast S5000x1 vd shapeCasts_S5000x1_S5000x1) broadcasts_S5000x1_S5000x64 (ix2 p k)
      + broadcastTo S5000x64 (shapeCast S1x64 b shapeCasts_S1x64_S1x64) broadcasts_S1x64_S5000x64 (ix2 p k))
    * broadcastTo S5000x64 (shapeCast S5000x1 vs shapeCasts_S5000x1_S5000x1) broadcasts_S5000x1_S5000x64 (ix2 p k)) * w (ix2 k q) = _
  rw [col_spread vd p k, col_spread vs p k, row_spread64 b p k, shapeCast_self]

/-- The last kernel's stored block at (p, q). -/
theorem last_payload (vd : Vec Ideal S5000x1 .f32) (a : Vec Ideal S5000x64 .f32) (b : Vec Ideal S1x64 .f32) (w : Vec Ideal S64x10 .f32) (bf : Vec Ideal S1x10 .f32) (p : Fin 5000) (q : Fin 10) :
    k3_pay1 (F := Ideal) vd a b w bf (ix2 p q)
      = (∑ k : Fin 64, Ideal.tanh (a (ix2 p k) * vd (ix2 p (0 : Fin 1)) + b (ix2 (0 : Fin 1) k)) * w (ix2 k q)) + bf (ix2 (0 : Fin 1) q) := by
  unfold k3_pay1
  show matmul (F := Ideal) dot_S5000x64_S64x10_S5000x10_1_0_0_1_n_n none
        (truncf .bf16 (tanh (addf (mulf (shapeCast S5000x64 a shapeCasts_S5000x64_S5000x64)
          (broadcastTo S5000x64 (shapeCast S5000x1 vd shapeCasts_S5000x1_S5000x1) broadcasts_S5000x1_S5000x64))
          (broadcastTo S5000x64 (shapeCast S1x64 b shapeCasts_S1x64_S1x64) broadcasts_S1x64_S5000x64))) bitsLt_bf16_f32)
        (truncf .bf16 w bitsLt_bf16_f32) (constant S5000x10 .f32 0x00000000#32) (ix2 p q)
      + broadcastTo S5000x10 (shapeCast S1x10 bf shapeCasts_S1x10_S1x10) broadcasts_S1x10_S5000x10 (ix2 p q) = _
  rw [row_spread10 bf p q]
  refine congrArg (· + bf (ix2 (0 : Fin 1) q)) ((prod10 _ _ p q).trans ?_)
  refine Finset.sum_congr rfl fun k _ => ?_
  show Ideal.tanh (shapeCast S5000x64 a shapeCasts_S5000x64_S5000x64 (ix2 p k) * broadcastTo S5000x64 (shapeCast S5000x1 vd shapeCasts_S5000x1_S5000x1) broadcasts_S5000x1_S5000x64 (ix2 p k)
      + broadcastTo S5000x64 (shapeCast S1x64 b shapeCasts_S1x64_S1x64) broadcasts_S1x64_S5000x64 (ix2 p k)) * w (ix2 k q) = _
  rw [col_spread vd p k, row_spread64 b p k, shapeCast_self]

end Cert.KernelIdeal.Pay

end
-- ==== Proof.Blocks0.lean ====
/-
  The first kernel region: what its result array holds when the region ends.

  The region walks ten blocks of 5000 node rows. At block t it reads rows 5000 t … 5000 t + 4999 of the node table and
  of the pair table and the whole weight table, and writes back rows 5000 t … of the result. Each written block is
  the first stage (`Spec.lean`) of the blocks read, hence — the stage being row-local — the same rows of the first
  stage of the whole tables; the ten blocks cover the array, so the array ends as the first stage of the tables the
  region found, whatever those are (`V` is the contents at the region's entry, a parameter).
-/
import proofs.«171301_j45595372815203_1_alg».proof.Proof.Gen.KernelIdeal.Frame
import proofs.«171301_j45595372815203_1_alg».proof.Proof.Payload
import Idealize.ShloMosaic.Lib.Pipeline.Value

set_option maxRecDepth 16384

noncomputable section

namespace Cert.KernelIdeal.Blocks0

open Cert.KernelIdeal Cert.KernelIdeal.Gen Cert.Gcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row windows at block row t, the weight table whole. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The node block at point t is rows 5000 t … of the node table. -/
theorem rows_x (c : Dev nD) (t : Fin cfg0.N) (x : S5000x64.Idx) (k : S50000x64.Idx)
    (hk0 : (k 0).val = t.val * 5000 + (x 0).val) (hk1 : (k 1).val = (x 1).val) :
    (iblk0 V c 0 t : Vec Ideal S5000x64 .f32) x = (V c main_arg0 : S50000x64.Idx → EReal) k := by
  obtain ⟨e00, e01, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * (x 0).val = (k 0).val; rw [e00, hk0]; omega
  | ⟨1, _⟩ => show win0_0.index t (1 : Fin 2) * 64 + 1 * (x 1).val = (k 1).val; rw [e01, hk1]; omega

/-- The pair block at point t is rows 5000 t … of the pair table. -/
theorem rows_np (c : Dev nD) (t : Fin cfg0.N) (x : S5000x2.Idx) (k : S50000x2.Idx)
    (hk0 : (k 0).val = t.val * 5000 + (x 0).val) (hk1 : (k 1).val = (x 1).val) :
    (iblk0 V c 1 t : Vec Ideal S5000x2 .f32) x = (V c main_v22 : S50000x2.Idx → EReal) k := by
  obtain ⟨-, -, e10, e11, -⟩ := idx_facts t
  unfold iblk0
  rw [View.read_apply]
  show V c main_v22 _ = V c main_v22 _
  refine congrArg (V c main_v22) (funext fun a => Fin.ext ?_)
  match a with
  | ⟨0, _⟩ => show win0_1.index t (0 : Fin 2) * 5000 + 1 * (x 0).val = (k 0).val; rw [e10, hk0]; omega
  | ⟨1, _⟩ => show win0_1.index t (1 : Fin 2) * 2 + 1 * (x 1).val = (k 1).val; rw [e11, hk1]; omega

/-- The weight block at every point is the weight table. -/
theorem whole_w (c : Dev nD) (t : Fin cfg0.N) :
    (iblk0 V c 2 t : Vec Ideal S64x64 .f32) = (V c main_arg3 : S64x64.Idx → EReal) := by
  obtain ⟨-, -, -, -, e20, e21, -⟩ := idx_facts t
  funext x
  unfold iblk0
  rw [View.read_apply]
  show V c main_arg3 _ = V c main_arg3 _
  refine congrArg (V c main_arg3) (funext fun a => Fin.ext ?_)
  match a with
  | ⟨0, _⟩ => show win0_2.index t (0 : Fin 2) * 64 + 1 * (x 0).val = (x 0).val; rw [e20]; omega
  | ⟨1, _⟩ => show win0_2.index t (1 : Fin 2) * 64 + 1 * (x 1).val = (x 1).val; rw [e21]; omega

/-- Column 0 of a pair block, loaded through its rectangle, at (p, 0). -/
theorem col0 (x1 : Vec Ideal S5000x2 .f32) (p : Fin 5000) :
    View.ld x1 r0_0 (ix2 p (0 : Fin 1)) = x1 (ix2 p (0 : Fin 2)) := by
  show x1 _ = x1 _
  refine congrArg x1 (funext fun a => Fin.ext ?_)
  match a with
  | ⟨0, _⟩ => show 0 + 1 * p.val = p.val; omega
  | ⟨1, _⟩ => rfl

/-- At one point, over plain tables: if the loaded blocks are rows 5000 T … of the big tables, the stored entry at y is
    the first stage of the big tables at the index i that y names. -/
theorem point_eq (X : Tab 50000 64) (NP : Tab 50000 2) (W : Tab 64 64)
    (x0 : Vec Ideal S5000x64 .f32) (x1 : Vec Ideal S5000x2 .f32) (x2 : Vec Ideal S64x64 .f32) (T : Nat) (hT : T < 10)
    (h0 : ∀ (p : Fin 5000) (k : Fin 64), x0 (ix2 p k) = X (ix2 (⟨T * 5000 + p.val, by omega⟩ : Fin 50000) k))
    (h1 : ∀ (p : Fin 5000) (k : Fin 2), x1 (ix2 p k) = NP (ix2 (⟨T * 5000 + p.val, by omega⟩ : Fin 50000) k))
    (h2 : x2 = W) (y : S5000x64.Idx) (i : S50000x64.Idx)
    (hi0 : (i 0).val = T * 5000 + (y 0).val) (hi1 : (i 1).val = (y 1).val) :
    k0_pay1 (F := Ideal) (View.ld x1 r0_0) x0 x2 y = first X NP W i := by
  subst h2
  obtain ⟨p, q, rfl⟩ : ∃ (p : Fin 5000) (q : Fin 64), y = ix2 p q := ⟨y 0, y 1, eq_ix2 y⟩
  have hi : i = ix2 (⟨T * 5000 + p.val, by have := p.isLt; omega⟩ : Fin 50000) q := by
    rw [eq_ix2 i]
    exact congrArg₂ ix2 (Fin.ext hi0) (Fin.ext hi1)
  rw [hi, Pay.first_payload, first_ix2, col0]
  exact firstAt_rows X NP x0 x1 x2 _ p q (h0 p) (h1 p)

/-- What point t writes back is block t of the first stage of the tables the region found. -/
theorem flushed_eq (c : Dev nD) (t : Fin cfg0.N) :
    (dat0 V c).flushed 3 t = ((cfg0.win 3).blk t).view.read (Elt Ideal) (first (V c main_arg0) (V c main_v22) (V c main_arg3)) := by
  obtain ⟨-, -, -, -, -, -, e30, e31⟩ := idx_facts t
  have hN : cfg0.N = 10 := N_0
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz]
  funext j
  show k0_pay1 (F := Ideal) (View.ld (iblk0 V c 1 t) r0_0) (iblk0 V c 0 t) (iblk0 V c 2 t) j
    = first (V c main_arg0) (V c main_v22) (V c main_arg3) (((cfg0.win 3).blk t).view.emb j)
  refine point_eq (V c main_arg0) (V c main_v22) (V c main_arg3) (iblk0 V c 0 t) (iblk0 V c 1 t) (iblk0 V c 2 t) t.val
    (by have := t.isLt; omega) (fun p k => rows_x V c t (ix2 p k) _ rfl rfl) (fun p k => rows_np V c t (ix2 p k) _ rfl rfl)
    (whole_w V c t) j (((cfg0.win 3).blk t).view.emb j) ?_ ?_
  · show win0_3.index t (0 : Fin 2) * 5000 + 1 * (j 0).val = t.val * 5000 + (j 0).val
    rw [e30]; omega
  · show win0_3.index t (1 : Fin 2) * 64 + 1 * (j 1).val = (j 1).val
    rw [e31]; omega

/-- An index of the result array is in point t's block iff each coordinate is in the block's range. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v27).slice (win0_3.rect t)).set ↔ _
  rw [View.set_slice_whole, Rect.mem_set_unit]
  exact Iff.rfl

/-- Every row of the result array is in the block of the point its row number names. -/
theorem cover (i : S50000x64.Idx) : ∃ t : Fin cfg0.N, (cfg0.win 3).flush t = true ∧ i ∈ ((cfg0.win 3).blk t).view.set := by
  have hN : cfg0.N = 10 := N_0
  have hi0 : (i 0).val < 50000 := (i 0).isLt
  have hi1 : (i 1).val < 64 := (i 1).isLt
  let t : Fin cfg0.N := ⟨(i 0).val / 5000, by rw [hN]; omega⟩
  obtain ⟨-, -, -, -, -, -, e30, e31⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e30, ht]; omega
  | ⟨1, _⟩ => show win0_3.index t (1 : Fin 2) * 64 ≤ (i 1).val ∧ (i 1).val < win0_3.index t (1 : Fin 2) * 64 + 64; rw [e31]; omega

/-- The result array when the region ends. -/
theorem arr (c : Dev nD) : (dat0 V c).arrAt 3 cfg0.N = first (V c main_arg0) (V c main_v22) (V c main_arg3) :=
  (dat0 V c).arrAt_eq_of_cover 3 _ (fun t _ => flushed_eq V c t) cover

end Cert.KernelIdeal.Blocks0

end
-- ==== Proof.Blocks1.lean ====
/-
  A middle kernel region: what its result array holds when the region ends.

  The region walks ten blocks of 5000 node rows. At block t it reads rows 5000 t … 5000 t + 4999 of the neighbour-sum
  table and of the pair table, the whole bias row and the whole weight table, and writes back rows 5000 t … of the
  result. Each written block is the middle stage (`Spec.lean`) of the blocks read, hence — the stage being
  row-local — the same rows of the middle stage of the whole tables; the ten blocks cover the array, so the array ends
  as the middle stage of the tables the region found (`V`, the contents at the region's entry, is a parameter).
-/
import proofs.«171301_j45595372815203_1_alg».proof.Proof.Gen.KernelIdeal.Frame
import proofs.«171301_j45595372815203_1_alg».proof.Proof.Payload
import Idealize.ShloMosaic.Lib.Pipeline.Value

set_option maxRecDepth 16384

noncomputable section

namespace Cert.KernelIdeal.Blocks1

open Cert.KernelIdeal Cert.KernelIdeal.Gen Cert.Gcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row windows at block row t, the bias row and the weights whole. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The neighbour-sum block at point t is rows 5000 t … of the neighbour-sum table. -/
theorem rows_a (c : Dev nD) (t : Fin cfg1.N) (x : S5000x64.Idx) (k : S50000x64.Idx)
    (hk0 : (k 0).val = t.val * 5000 + (x 0).val) (hk1 : (k 1).val = (x 1).val) :
    (iblk1 V c 0 t : Vec Ideal S5000x64 .f32) x = (V c main_v37 : S50000x64.Idx → EReal) k := by
  obtain ⟨e00, e01, -⟩ := idx_facts t
  unfold iblk1
  rw [View.read_apply]
  show V c main_v37 _ = V c main_v37 _
  refine congrArg (V c main_v37) (funext fun a => Fin.ext ?_)
  match a with
  | ⟨0, _⟩ => show win1_0.index t (0 : Fin 2) * 5000 + 1 * (x 0).val = (k 0).val; rw [e00, hk0]; omega
  | ⟨1, _⟩ => show win1_0.index t (1 : Fin 2) * 64 + 1 * (x 1).val = (k 1).val; rw [e01, hk1]; omega

/-- The pair block at point t is rows 5000 t … of the pair table. -/
theorem rows_np (c : Dev nD) (t : Fin cfg1.N) (x : S5000x2.Idx) (k : S50000x2.Idx)
    (hk0 : (k 0).val = t.val * 5000 + (x 0).val) (hk1 : (k 1).val = (x 1).val) :
    (iblk1 V c 1 t : Vec Ideal S5000x2 .f32) x = (V c main_v22 : S50000x2.Idx → EReal) k := by
  obtain ⟨-, -, e10, e11, -⟩ := idx_facts t
  unfold iblk1
  rw [View.read_apply]
  show V c main_v22 _ = V c main_v22 _
  refine congrArg (V c main_v22) (funext fun a => Fin.ext ?_)
  match a with
  | ⟨0, _⟩ => show win1_1.index t (0 : Fin 2) * 5000 + 1 * (x 0).val = (k 0).val; rw [e10, hk0]; omega
  | ⟨1, _⟩ => show win1_1.index t (1 : Fin 2) * 2 + 1 * (x 1).val = (k 1).val; rw [e11, hk1]; omega

/-- The bias block at every point is the bias row. -/
theorem whole_b (c : Dev nD) (t : Fin cfg1.N) :
    (iblk1 V c 2 t : Vec Ideal S1x64 .f32) = (V c main_v23 : S1x64.Idx → EReal) := by
  obtain ⟨-, -, -, -, e20, e21, -⟩ := idx_facts t
  funext x
  unfold iblk1
  rw [View.read_apply]
  show V c main_v23 _ = V c main_v23 _
  refine congrArg (V c main_v23) (funext fun a => Fin.ext ?_)
  match a with
  | ⟨0, _⟩ => show win1_2.index t (0 : Fin 2) * 1 + 1 * (x 0).val = (x 0).val; rw [e20]; omega
  | ⟨1, _⟩ => show win1_2.index t (1 : Fin 2) * 64 + 1 * (x 1).val = (x 1).val; rw [e21]; omega

/-- The weight block at every point is the weight table. -/
theorem whole_w (c : Dev nD) (t : Fin cfg1.N) :
    (iblk1 V c 3 t : Vec Ideal S64x64 .f32) = (V c main_arg5 : S64x64.Idx → EReal) := by
  obtain ⟨-, -, -, -, -, -, e30, e31, -⟩ := idx_facts t
  funext x
  unfold iblk1
  rw [View.read_apply]
  show V c main_arg5 _ = V c main_arg5 _
  refine congrArg (V c main_arg5) (funext fun a => Fin.ext ?_)
  match a with
  | ⟨0, _⟩ => show win1_3.index t (0 : Fin 2) * 64 + 1 * (x 0).val = (x 0).val; rw [e30]; omega
  | ⟨1, _⟩ => show win1_3.index t (1 : Fin 2) * 64 + 1 * (x 1).val = (x 1).val; rw [e31]; omega

/-- Column 1 of a pair block, loaded through its rectangle, at (p, 0). -/
theorem col1 (x1 : Vec Ideal S5000x2 .f32) (p : Fin 5000) :
    View.ld x1 r1_0 (ix2 p (0 : Fin 1)) = x1 (ix2 p (1 : Fin 2)) := by
  show x1 _ = x1 _
  refine congrArg x1 (funext fun a => Fin.ext ?_)
  match a with
  | ⟨0, _⟩ => show 0 + 1 * p.val = p.val; omega
  | ⟨1, _⟩ => rfl

/-- Column 0 of a pair block, loaded through its rectangle, at (p, 0). -/
theorem col0 (x1 : Vec Ideal S5000x2 .f32) (p : Fin 5000) :
    View.ld x1 r1_1 (ix2 p (0 : Fin 1)) = x1 (ix2 p (0 : Fin 2)) := by
  show x1 _ = x1 _
  refine congrArg x1 (funext fun a => Fin.ext ?_)
  match a with
  | ⟨0, _⟩ => show 0 + 1 * p.val = p.val; omega
  | ⟨1, _⟩ => rfl

/-- At one point, over plain tables: if the loaded blocks are rows 5000 T … of the big tables, the stored entry at y is
    the middle stage of the big tables at the index i that y names. -/
theorem point_eq (A : Tab 50000 64) (NP : Tab 50000 2) (B : Tab 1 64) (W : Tab 64 64)
    (x0 : Vec Ideal S5000x64 .f32) (x1 : Vec Ideal S5000x2 .f32) (x2 : Vec Ideal S1x64 .f32) (x3 : Vec Ideal S64x64 .f32) (T : Nat) (hT : T < 10)
    (h0 : ∀ (p : Fin 5000) (k : Fin 64), x0 (ix2 p k) = A (ix2 (⟨T * 5000 + p.val, by omega⟩ : Fin 50000) k))
    (h1 : ∀ (p : Fin 5000) (k : Fin 2), x1 (ix2 p k) = NP (ix2 (⟨T * 5000 + p.val, by omega⟩ : Fin 50000) k))
    (h2 : x2 = B) (h3 : x3 = W) (y : S5000x64.Idx) (i : S50000x64.Idx)
    (hi0 : (i 0).val = T * 5000 + (y 0).val) (hi1 : (i 1).val = (y 1).val) :
    k1_pay1 (F := Ideal) (View.ld x1 r1_0) (View.ld x1 r1_1) x0 x2 x3 y = middle A NP B W i := by
  subst h2 h3
  obtain ⟨p, q, rfl⟩ : ∃ (p : Fin 5000) (q : Fin 64), y = ix2 p q := ⟨y 0, y 1, eq_ix2 y⟩
  have hi : i = ix2 (⟨T * 5000 + p.val, by have := p.isLt; omega⟩ : Fin 50000) q := by
    rw [eq_ix2 i]
    exact congrArg₂ ix2 (Fin.ext hi0) (Fin.ext hi1)
  rw [hi, Pay.middle_payload1, middle_ix2, col0, col1]
  exact middleAt_rows A NP x0 x1 x2 x3 _ p q (h0 p) (h1 p)

/-- What point t writes back is block t of the middle stage of the tables the region found. -/
theorem flushed_eq (c : Dev nD) (t : Fin cfg1.N) :
    (dat1 V c).flushed 4 t = ((cfg1.win 4).blk t).view.read (Elt Ideal) (middle (V c main_v37) (V c main_v22) (V c main_v23) (V c main_arg5)) := by
  obtain ⟨-, -, -, -, -, -, -, -, e40, e41⟩ := idx_facts t
  have hN : cfg1.N = 10 := N_1
  show (cfg1.win 4).cut (grid1.coords t) ((dat1 V c).after 4 t) = _
  rw [after1_4]
  unfold out1_4
  rw [View.canon_unit_zero hz]
  simp only [View.ld_unit_zero (S := S5000x64) hz, View.ld_unit_zero (S := S64x64) hz, View.ld_unit_zero (S := S1x64) hz]
  funext j
  show k1_pay1 (F := Ideal) (View.ld (iblk1 V c 1 t) r1_0) (View.ld (iblk1 V c 1 t) r1_1) (iblk1 V c 0 t) (iblk1 V c 2 t) (iblk1 V c 3 t) j
    = middle (V c main_v37) (V c main_v22) (V c main_v23) (V c main_arg5) (((cfg1.win 4).blk t).view.emb j)
  refine point_eq (V c main_v37) (V c main_v22) (V c main_v23) (V c main_arg5) (iblk1 V c 0 t) (iblk1 V c 1 t) (iblk1 V c 2 t) (iblk1 V c 3 t) t.val
    (by have := t.isLt; omega) (fun p k => rows_a V c t (ix2 p k) _ rfl rfl) (fun p k => rows_np V c t (ix2 p k) _ rfl rfl)
    (whole_b V c t) (whole_w V c t) j (((cfg1.win 4).blk t).view.emb j) ?_ ?_
  · show win1_4.index t (0 : Fin 2) * 5000 + 1 * (j 0).val = t.val * 5000 + (j 0).val
    rw [e40]; omega
  · show win1_4.index t (1 : Fin 2) * 64 + 1 * (j 1).val = (j 1).val
    rw [e41]; omega

/-- An index of the result array is in point t's block iff each coordinate is in the block's range. -/
theorem mem_blk (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v38).slice (win1_4.rect t)).set ↔ _
  rw [View.set_slice_whole, Rect.mem_set_unit]
  exact Iff.rfl

/-- Every row of the result array is in the block of the point its row number names. -/
theorem cover (i : S50000x64.Idx) : ∃ t : Fin cfg1.N, (cfg1.win 4).flush t = true ∧ i ∈ ((cfg1.win 4).blk t).view.set := by
  have hN : cfg1.N = 10 := N_1
  have hi0 : (i 0).val < 50000 := (i 0).isLt
  have hi1 : (i 1).val < 64 := (i 1).isLt
  let t : Fin cfg1.N := ⟨(i 0).val / 5000, by rw [hN]; omega⟩
  obtain ⟨-, -, -, -, -, -, -, -, e40, e41⟩ := idx_facts t
  have ht : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; rw [e40, ht]; omega
  | ⟨1, _⟩ => show win1_4.index t (1 : Fin 2) * 64 ≤ (i 1).val ∧ (i 1).val < win1_4.index t (1 : Fin 2) * 64 + 64; rw [e41]; omega

/-- The result array when the region ends. -/
theorem arr (c : Dev nD) : (dat1 V c).arrAt 4 cfg1.N = middle (V c main_v37) (V c main_v22) (V c main_v23) (V c main_arg5) :=
  (dat1 V c).arrAt_eq_of_cover 4 _ (fun t _ => flushed_eq V c t) cover

end Cert.KernelIdeal.Blocks1

end
-- ==== Proof.Blocks2.lean ====
/-
  A middle kernel region: what its result array holds when the region ends.

  The region walks ten blocks of 5000 node rows. At block t it reads rows 5000 t … 5000 t + 4999 of the neighbour-sum
  table and of the pair table, the whole bias row and the whole weight table, and writes back rows 5000 t … of the
  result. Each written block is the middle stage (`Spec.lean`) of the blocks read, hence — the stage being
  row-local — the same rows of the middle stage of the whole tables; the ten blocks cover the array, so the array ends
  as the middle stage of the tables the region found (`V`, the contents at the region's entry, is a parameter).
-/
import proofs.«171301_j45595372815203_1_alg».proof.Proof.Gen.KernelIdeal.Frame
import proofs.«171301_j45595372815203_1_alg».proof.Proof.Payload
import Idealize.ShloMosaic.Lib.Pipeline.Value

set_option maxRecDepth 16384

noncomputable section

namespace Cert.KernelIdeal.Blocks2

open Cert.KernelIdeal Cert.KernelIdeal.Gen Cert.Gcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row windows at block row t, the bias row and the weights whole. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The neighbour-sum block at point t is rows 5000 t … of the neighbour-sum table. -/
theorem rows_a (c : Dev nD) (t : Fin cfg2.N) (x : S5000x64.Idx) (k : S50000x64.Idx)
    (hk0 : (k 0).val = t.val * 5000 + (x 0).val) (hk1 : (k 1).val = (x 1).val) :
    (iblk2 V c 0 t : Vec Ideal S5000x64 .f32) x = (V c main_v48 : S50000x64.Idx → EReal) k := by
  obtain ⟨e00, e01, -⟩ := idx_facts t
  unfold iblk2
  rw [View.read_apply]
  show V c main_v48 _ = V c main_v48 _
  refine congrArg (V c main_v48) (funext fun a => Fin.ext ?_)
  match a with
  | ⟨0, _⟩ => show win2_0.index t (0 : Fin 2) * 5000 + 1 * (x 0).val = (k 0).val; rw [e00, hk0]; omega
  | ⟨1, _⟩ => show win2_0.index t (1 : Fin 2) * 64 + 1 * (x 1).val = (k 1).val; rw [e01, hk1]; omega

/-- The pair block at point t is rows 5000 t … of the pair table. -/
theorem rows_np (c : Dev nD) (t : Fin cfg2.N) (x : S5000x2.Idx) (k : S50000x2.Idx)
    (hk0 : (k 0).val = t.val * 5000 + (x 0).val) (hk1 : (k 1).val = (x 1).val) :
    (iblk2 V c 1 t : Vec Ideal S5000x2 .f32) x = (V c main_v22 : S50000x2.Idx → EReal) k := by
  obtain ⟨-, -, e10, e11, -⟩ := idx_facts t
  unfold iblk2
  rw [View.read_apply]
  show V c main_v22 _ = V c main_v22 _
  refine congrArg (V c main_v22) (funext fun a => Fin.ext ?_)
  match a with
  | ⟨0, _⟩ => show win2_1.index t (0 : Fin 2) * 5000 + 1 * (x 0).val = (k 0).val; rw [e10, hk0]; omega
  | ⟨1, _⟩ => show win2_1.index t (1 : Fin 2) * 2 + 1 * (x 1).val = (k 1).val; rw [e11, hk1]; omega

/-- The bias block at every point is the bias row. -/
theorem whole_b (c : Dev nD) (t : Fin cfg2.N) :
    (iblk2 V c 2 t : Vec Ideal S1x64 .f32) = (V c main_v24 : S1x64.Idx → EReal) := by
  obtain ⟨-, -, -, -, e20, e21, -⟩ := idx_facts t
  funext x
  unfold iblk2
  rw [View.read_apply]
  show V c main_v24 _ = V c main_v24 _
  refine congrArg (V c main_v24) (funext fun a => Fin.ext ?_)
  match a with
  | ⟨0, _⟩ => show win2_2.index t (0 : Fin 2) * 1 + 1 * (x 0).val = (x 0).val; rw [e20]; omega
  | ⟨1, _⟩ => show win2_2.index t (1 : Fin 2) * 64 + 1 * (x 1).val = (x 1).val; rw [e21]; omega

/-- The weight block at every point is the weight table. -/
theorem whole_w (c : Dev nD) (t : Fin cfg2.N) :
    (iblk2 V c 3 t : Vec Ideal S64x64 .f32) = (V c main_arg7 : S64x64.Idx → EReal) := by
  obtain ⟨-, -, -, -, -, -, e30, e31, -⟩ := idx_facts t
  funext x
  unfold iblk2
  rw [View.read_apply]
  show V c main_arg7 _ = V c main_arg7 _
  refine congrArg (V c main_arg7) (funext fun a => Fin.ext ?_)
  match a with
  | ⟨0, _⟩ => show win2_3.index t (0 : Fin 2) * 64 + 1 * (x 0).val = (x 0).val; rw [e30]; omega
  | ⟨1, _⟩ => show win2_3.index t (1 : Fin 2) * 64 + 1 * (x 1).val = (x 1).val; rw [e31]; omega

/-- Column 1 of a pair block, loaded through its rectangle, at (p, 0). -/
theorem col1 (x1 : Vec Ideal S5000x2 .f32) (p : Fin 5000) :
    View.ld x1 r2_0 (ix2 p (0 : Fin 1)) = x1 (ix2 p (1 : Fin 2)) := by
  show x1 _ = x1 _
  refine congrArg x1 (funext fun a => Fin.ext ?_)
  match a with
  | ⟨0, _⟩ => show 0 + 1 * p.val = p.val; omega
  | ⟨1, _⟩ => rfl

/-- Column 0 of a pair block, loaded through its rectangle, at (p, 0). -/
theorem col0 (x1 : Vec Ideal S5000x2 .f32) (p : Fin 5000) :
    View.ld x1 r2_1 (ix2 p (0 : Fin 1)) = x1 (ix2 p (0 : Fin 2)) := by
  show x1 _ = x1 _
  refine congrArg x1 (funext fun a => Fin.ext ?_)
  match a with
  | ⟨0, _⟩ => show 0 + 1 * p.val = p.val; omega
  | ⟨1, _⟩ => rfl

/-- At one point, over plain tables: if the loaded blocks are rows 5000 T … of the big tables, the stored entry at y is
    the middle stage of the big tables at the index i that y names. -/
theorem point_eq (A : Tab 50000 64) (NP : Tab 50000 2) (B : Tab 1 64) (W : Tab 64 64)
    (x0 : Vec Ideal S5000x64 .f32) (x1 : Vec Ideal S5000x2 .f32) (x2 : Vec Ideal S1x64 .f32) (x3 : Vec Ideal S64x64 .f32) (T : Nat) (hT : T < 10)
    (h0 : ∀ (p : Fin 5000) (k : Fin 64), x0 (ix2 p k) = A (ix2 (⟨T * 5000 + p.val, by omega⟩ : Fin 50000) k))
    (h1 : ∀ (p : Fin 5000) (k : Fin 2), x1 (ix2 p k) = NP (ix2 (⟨T * 5000 + p.val, by omega⟩ : Fin 50000) k))
    (h2 : x2 = B) (h3 : x3 = W) (y : S5000x64.Idx) (i : S50000x64.Idx)
    (hi0 : (i 0).val = T * 5000 + (y 0).val) (hi1 : (i 1).val = (y 1).val) :
    k2_pay1 (F := Ideal) (View.ld x1 r2_0) (View.ld x1 r2_1) x0 x2 x3 y = middle A NP B W i := by
  subst h2 h3
  obtain ⟨p, q, rfl⟩ : ∃ (p : Fin 5000) (q : Fin 64), y = ix2 p q := ⟨y 0, y 1, eq_ix2 y⟩
  have hi : i = ix2 (⟨T * 5000 + p.val, by have := p.isLt; omega⟩ : Fin 50000) q := by
    rw [eq_ix2 i]
    exact congrArg₂ ix2 (Fin.ext hi0) (Fin.ext hi1)
  rw [hi, Pay.middle_payload2, middle_ix2, col0, col1]
  exact middleAt_rows A NP x0 x1 x2 x3 _ p q (h0 p) (h1 p)

/-- What point t writes back is block t of the middle stage of the tables the region found. -/
theorem flushed_eq (c : Dev nD) (t : Fin cfg2.N) :
    (dat2 V c).flushed 4 t = ((cfg2.win 4).blk t).view.read (Elt Ideal) (middle (V c main_v48) (V c main_v22) (V c main_v24) (V c main_arg7)) := by
  obtain ⟨-, -, -, -, -, -, -, -, e40, e41⟩ := idx_facts t
  have hN : cfg2.N = 10 := N_2
  show (cfg2.win 4).cut (grid2.coords t) ((dat2 V c).after 4 t) = _
  rw [after2_4]
  unfold out2_4
  rw [View.canon_unit_zero hz]
  simp only [View.ld_unit_zero (S := S5000x64) hz, View.ld_unit_zero (S := S64x64) hz, View.ld_unit_zero (S := S1x64) hz]
  funext j
  show k2_pay1 (F := Ideal) (View.ld (iblk2 V c 1 t) r2_0) (View.ld (iblk2 V c 1 t) r2_1) (iblk2 V c 0 t) (iblk2 V c 2 t) (iblk2 V c 3 t) j
    = middle (V c main_v48) (V c main_v22) (V c main_v24) (V c main_arg7) (((cfg2.win 4).blk t).view.emb j)
  refine point_eq (V c main_v48) (V c main_v22) (V c main_v24) (V c main_arg7) (iblk2 V c 0 t) (iblk2 V c 1 t) (iblk2 V c 2 t) (iblk2 V c 3 t) t.val
    (by have := t.isLt; omega) (fun p k => rows_a V c t (ix2 p k) _ rfl rfl) (fun p k => rows_np V c t (ix2 p k) _ rfl rfl)
    (whole_b V c t) (whole_w V c t) j (((cfg2.win 4).blk t).view.emb j) ?_ ?_
  · show win2_4.index t (0 : Fin 2) * 5000 + 1 * (j 0).val = t.val * 5000 + (j 0).val
    rw [e40]; omega
  · show win2_4.index t (1 : Fin 2) * 64 + 1 * (j 1).val = (j 1).val
    rw [e41]; omega

/-- An index of the result array is in point t's block iff each coordinate is in the block's range. -/
theorem mem_blk (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v49).slice (win2_4.rect t)).set ↔ _
  rw [View.set_slice_whole, Rect.mem_set_unit]
  exact Iff.rfl

/-- Every row of the result array is in the block of the point its row number names. -/
theorem cover (i : S50000x64.Idx) : ∃ t : Fin cfg2.N, (cfg2.win 4).flush t = true ∧ i ∈ ((cfg2.win 4).blk t).view.set := by
  have hN : cfg2.N = 10 := N_2
  have hi0 : (i 0).val < 50000 := (i 0).isLt
  have hi1 : (i 1).val < 64 := (i 1).isLt
  let t : Fin cfg2.N := ⟨(i 0).val / 5000, by rw [hN]; omega⟩
  obtain ⟨-, -, -, -, -, -, -, -, e40, e41⟩ := idx_facts t
  have ht : t.val = (i 0).val / 5000 := rfl
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; rw [e40, ht]; omega
  | ⟨1, _⟩ => show win2_4.index t (1 : Fin 2) * 64 ≤ (i 1).val ∧ (i 1).val < win2_4.index t (1 : Fin 2) * 64 + 64; rw [e41]; omega

/-- The result array when the region ends. -/
theorem arr (c : Dev nD) : (dat2 V c).arrAt 4 cfg2.N = middle (V c main_v48) (V c main_v22) (V c main_v24) (V c main_arg7) :=
  (dat2 V c).arrAt_eq_of_cover 4 _ (fun t _ => flushed_eq V c t) cover

end Cert.KernelIdeal.Blocks2

end
-- ==== Proof.Blocks3.lean ====
/-
  The last kernel region: what its result array holds when the region ends.

  The region walks ten blocks of 5000 node rows. At block t it reads rows 5000 t … 5000 t + 4999 of the neighbour-sum
  table and of the pair table, the whole bias row, the whole [64,10] weight table and the whole output bias row, and
  writes back rows 5000 t … of the [50000,10] result. Each written block is the last stage (`Spec.lean`) of the blocks
  read, hence — the stage being row-local — the same rows of the last stage of the whole tables; the ten blocks cover
  the array, so the array ends as the last stage of the tables the region found (`V` is a parameter).
-/
import proofs.«171301_j45595372815203_1_alg».proof.Proof.Gen.KernelIdeal.Frame
import proofs.«171301_j45595372815203_1_alg».proof.Proof.Payload
import Idealize.ShloMosaic.Lib.Pipeline.Value

set_option maxRecDepth 16384

noncomputable section

namespace Cert.KernelIdeal.Blocks3

open Cert.KernelIdeal Cert.KernelIdeal.Gen Cert.Gcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row windows at block row t, the small tables whole. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The neighbour-sum block at point t is rows 5000 t … of the neighbour-sum table. -/
theorem rows_a (c : Dev nD) (t : Fin cfg3.N) (x : S5000x64.Idx) (k : S50000x64.Idx)
    (hk0 : (k 0).val = t.val * 5000 + (x 0).val) (hk1 : (k 1).val = (x 1).val) :
    (iblk3 V c 0 t : Vec Ideal S5000x64 .f32) x = (V c main_v59 : S50000x64.Idx → EReal) k := by
  obtain ⟨e00, e01, -⟩ := idx_facts t
  unfold iblk3
  rw [View.read_apply]
  show V c main_v59 _ = V c main_v59 _
  refine congrArg (V c main_v59) (funext fun a => Fin.ext ?_)
  match a with
  | ⟨0, _⟩ => show win3_0.index t (0 : Fin 2) * 5000 + 1 * (x 0).val = (k 0).val; rw [e00, hk0]; omega
  | ⟨1, _⟩ => show win3_0.index t (1 : Fin 2) * 64 + 1 * (x 1).val = (k 1).val; rw [e01, hk1]; omega

/-- The pair block at point t is rows 5000 t … of the pair table. -/
theorem rows_np (c : Dev nD) (t : Fin cfg3.N) (x : S5000x2.Idx) (k : S50000x2.Idx)
    (hk0 : (k 0).val = t.val * 5000 + (x 0).val) (hk1 : (k 1).val = (x 1).val) :
    (iblk3 V c 1 t : Vec Ideal S5000x2 .f32) x = (V c main_v22 : S50000x2.Idx → EReal) k := by
  obtain ⟨-, -, e10, e11, -⟩ := idx_facts t
  unfold iblk3
  rw [View.read_apply]
  show V c main_v22 _ = V c main_v22 _
  refine congrArg (V c main_v22) (funext fun a => Fin.ext ?_)
  match a with
  | ⟨0, _⟩ => show win3_1.index t (0 : Fin 2) * 5000 + 1 * (x 0).val = (k 0).val; rw [e10, hk0]; omega
  | ⟨1, _⟩ => show win3_1.index t (1 : Fin 2) * 2 + 1 * (x 1).val = (k 1).val; rw [e11, hk1]; omega

/-- The bias block at every point is the bias row. -/
theorem whole_b (c : Dev nD) (t : Fin cfg3.N) :
    (iblk3 V c 2 t : Vec Ideal S1x64 .f32) = (V c main_v25 : S1x64.Idx → EReal) := by
  obtain ⟨-, -, -, -, e20, e21, -⟩ := idx_facts t
  funext x
  unfold iblk3
  rw [View.read_apply]
  show V c main_v25 _ = V c main_v25 _
  refine congrArg (V c main_v25) (funext fun a => Fin.ext ?_)
  match a with
  | ⟨0, _⟩ => show win3_2.index t (0 : Fin 2) * 1 + 1 * (x 0).val = (x 0).val; rw [e20]; omega
  | ⟨1, _⟩ => show win3_2.index t (1 : Fin 2) * 64 + 1 * (x 1).val = (x 1).val; rw [e21]; omega

/-- The weight block at every point is the weight table. -/
theorem whole_w (c : Dev nD) (t : Fin cfg3.N) :
    (iblk3 V c 3 t : Vec Ideal S64x10 .f32) = (V c main_arg9 : S64x10.Idx → EReal) := by
  obtain ⟨-, -, -, -, -, -, e30, e31, -⟩ := idx_facts t
  funext x
  unfold iblk3
  rw [View.read_apply]
  show V c main_arg9 _ = V c main_arg9 _
  refine congrArg (V c main_arg9) (funext fun a => Fin.ext ?_)
  match a with
  | ⟨0, _⟩ => show win3_3.index t (0 : Fin 2) * 64 + 1 * (x 0).val = (x 0).val; rw [e30]; omega
  | ⟨1, _⟩ => show win3_3.index t (1 : Fin 2) * 10 + 1 * (x 1).val = (x 1).val; rw [e31]; omega

/-- The output-bias block at every point is the output bias row. -/
theorem whole_f (c : Dev nD) (t : Fin cfg3.N) :
    (iblk3 V c 4 t : Vec Ideal S1x10 .f32) = (V c main_v26 : S1x10.Idx → EReal) := by
  obtain ⟨-, -, -, -, -, -, -, -, e40, e41, -⟩ := idx_facts t
  funext x
  unfold iblk3
  rw [View.read_apply]
  show V c main_v26 _ = V c main_v26 _
  refine congrArg (V c main_v26) (funext fun a => Fin.ext ?_)
  match a with
  | ⟨0, _⟩ => show win3_4.index t (0 : Fin 2) * 1 + 1 * (x 0).val = (x 0).val; rw [e40]; omega
  | ⟨1, _⟩ => show win3_4.index t (1 : Fin 2) * 10 + 1 * (x 1).val = (x 1).val; rw [e41]; omega

/-- Column 1 of a pair block, loaded through its rectangle, at (p, 0). -/
theorem col1 (x1 : Vec Ideal S5000x2 .f32) (p : Fin 5000) :
    View.ld x1 r3_0 (ix2 p (0 : Fin 1)) = x1 (ix2 p (1 : Fin 2)) := by
  show x1 _ = x1 _
  refine congrArg x1 (funext fun a => Fin.ext ?_)
  match a with
  | ⟨0, _⟩ => show 0 + 1 * p.val = p.val; omega
  | ⟨1, _⟩ => rfl

/-- At one point, over plain tables: if the loaded blocks are rows 5000 T … of the big tables, the stored entry at y is
    the last stage of the big tables at the index i that y names. -/
theorem point_eq (A : Tab 50000 64) (NP : Tab 50000 2) (B : Tab 1 64) (W : Tab 64 10) (BF : Tab 1 10)
    (x0 : Vec Ideal S5000x64 .f32) (x1 : Vec Ideal S5000x2 .f32) (x2 : Vec Ideal S1x64 .f32) (x3 : Vec Ideal S64x10 .f32) (x4 : Vec Ideal S1x10 .f32) (T : Nat) (hT : T < 10)
    (h0 : ∀ (p : Fin 5000) (k : Fin 64), x0 (ix2 p k) = A (ix2 (⟨T * 5000 + p.val, by omega⟩ : Fin 50000) k))
    (h1 : ∀ (p : Fin 5000) (k : Fin 2), x1 (ix2 p k) = NP (ix2 (⟨T * 5000 + p.val, by omega⟩ : Fin 50000) k))
    (h2 : x2 = B) (h3 : x3 = W) (h4 : x4 = BF) (y : S5000x10.Idx) (i : S50000x10.Idx)
    (hi0 : (i 0).val = T * 5000 + (y 0).val) (hi1 : (i 1).val = (y 1).val) :
    k3_pay1 (F := Ideal) (View.ld x1 r3_0) x0 x2 x3 x4 y = last A NP B W BF i := by
  subst h2 h3 h4
  obtain ⟨p, q, rfl⟩ : ∃ (p : Fin 5000) (q : Fin 10), y = ix2 p q := ⟨y 0, y 1, eq_ix2 y⟩
  have hi : i = ix2 (⟨T * 5000 + p.val, by have := p.isLt; omega⟩ : Fin 50000) q := by
    rw [eq_ix2 i]
    exact congrArg₂ ix2 (Fin.ext hi0) (Fin.ext hi1)
  rw [hi, Pay.last_payload, last_ix2, col1]
  exact lastAt_rows A NP x0 x1 x2 x3 x4 _ p q (h0 p) (h1 p)

/-- What point t writes back is block t of the last stage of the tables the region found. -/
theorem flushed_eq (c : Dev nD) (t : Fin cfg3.N) :
    (dat3 V c).flushed 5 t = ((cfg3.win 5).blk t).view.read (Elt Ideal) (last (V c main_v59) (V c main_v22) (V c main_v25) (V c main_arg9) (V c main_v26)) := by
  obtain ⟨-, -, -, -, -, -, -, -, -, -, e50, e51⟩ := idx_facts t
  have hN : cfg3.N = 10 := N_3
  show (cfg3.win 5).cut (grid3.coords t) ((dat3 V c).after 5 t) = _
  rw [after3_5]
  unfold out3_5
  rw [View.canon_unit_zero hz]
  simp only [View.ld_unit_zero (S := S5000x64) hz, View.ld_unit_zero (S := S64x10) hz, View.ld_unit_zero (S := S1x64) hz, View.ld_unit_zero (S := S1x10) hz]
  funext j
  show k3_pay1 (F := Ideal) (View.ld (iblk3 V c 1 t) r3_0) (iblk3 V c 0 t) (iblk3 V c 2 t) (iblk3 V c 3 t) (iblk3 V c 4 t) j
    = last (V c main_v59) (V c main_v22) (V c main_v25) (V c main_arg9) (V c main_v26) (((cfg3.win 5).blk t).view.emb j)
  refine point_eq (V c main_v59) (V c main_v22) (V c main_v25) (V c main_arg9) (V c main_v26) (iblk3 V c 0 t) (iblk3 V c 1 t) (iblk3 V c 2 t) (iblk3 V c 3 t) (iblk3 V c 4 t) t.val
    (by have := t.isLt; omega) (fun p k => rows_a V c t (ix2 p k) _ rfl rfl) (fun p k => rows_np V c t (ix2 p k) _ rfl rfl)
    (whole_b V c t) (whole_w V c t) (whole_f V c t) j (((cfg3.win 5).blk t).view.emb j) ?_ ?_
  · show win3_5.index t (0 : Fin 2) * 5000 + 1 * (j 0).val = t.val * 5000 + (j 0).val
    rw [e50]; omega
  · show win3_5.index t (1 : Fin 2) * 10 + 1 * (j 1).val = (j 1).val
    rw [e51]; omega

/-- An index of the result array is in point t's block iff each coordinate is in the block's range. -/
theorem mem_blk (t : Fin cfg3.N) (i : S50000x10.Idx) :
    i ∈ ((cfg3.win 5).blk t).view.set ↔ ∀ a : Fin 2, win3_5.index t a * S5000x10.size a ≤ (i a).val ∧ (i a).val < win3_5.index t a * S5000x10.size a + S5000x10.size a := by
  show i ∈ ((View.whole main_v60).slice (win3_5.rect t)).set ↔ _
  rw [View.set_slice_whole, Rect.mem_set_unit]
  exact Iff.rfl

/-- Every row of the result array is in the block of the point its row number names. -/
theorem cover (i : S50000x10.Idx) : ∃ t : Fin cfg3.N, (cfg3.win 5).flush t = true ∧ i ∈ ((cfg3.win 5).blk t).view.set := by
  have hN : cfg3.N = 10 := N_3
  have hi0 : (i 0).val < 50000 := (i 0).isLt
  have hi1 : (i 1).val < 10 := (i 1).isLt
  let t : Fin cfg3.N := ⟨(i 0).val / 5000, by rw [hN]; omega⟩
  obtain ⟨-, -, -, -, -, -, -, -, -, -, e50, e51⟩ := idx_facts t
  have ht : t.val = (i 0).val / 5000 := rfl
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; rw [e50, ht]; omega
  | ⟨1, _⟩ => show win3_5.index t (1 : Fin 2) * 10 ≤ (i 1).val ∧ (i 1).val < win3_5.index t (1 : Fin 2) * 10 + 10; rw [e51]; omega

/-- The result array when the region ends. -/
theorem arr (c : Dev nD) : (dat3 V c).arrAt 5 cfg3.N = last (V c main_v59) (V c main_v22) (V c main_v25) (V c main_arg9) (V c main_v26) :=
  (dat3 V c).arrAt_eq_of_cover 5 _ (fun t _ => flushed_eq V c t) cover

end Cert.KernelIdeal.Blocks3

end
-- ==== Proof.Chain.lean ====
/-
  The kernel program's result array, read back through the regions and the host stretches between them.

  The contents after the last region, at the result's buffer, are the last stage of the arrays the last region found;
  those are the neighbour sum (computed on the host) of the third region's array, the pair table and the bias rows,
  which no later operation rewrites; and so on back to the launch: the composition `Model.result` of the arguments.
-/
import proofs.«171301_j45595372815203_1_alg».proof.Proof.Gen.KernelIdeal.Frame
import proofs.«171301_j45595372815203_1_alg».proof.Proof.KModel
import proofs.«171301_j45595372815203_1_alg».proof.Proof.Blocks0
import proofs.«171301_j45595372815203_1_alg».proof.Proof.Blocks1
import proofs.«171301_j45595372815203_1_alg».proof.Proof.Blocks2
import proofs.«171301_j45595372815203_1_alg».proof.Proof.Blocks3
import Idealize.ShloMosaic.Lib.StableHlo.Run

set_option maxRecDepth 16384

noncomputable section

namespace Cert.KernelIdeal.Chain

open Cert.KernelIdeal Cert.KernelIdeal.Gen Cert.Gcn Cert.KernelIdeal.Model
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- What every boundary after the first stretch holds in the buffers no later operation writes: the pair table, the bias
    rows, the two index vectors and the later layers' weights. -/
structure Base (c : Dev nD) (W : Valuation τ sig (Elt Ideal)) : Prop where
  h_pair : W (Proc.devRef .tc main_v22) = pair (m ((c : Thread nD τ).loc main_arg1)) (m ((c : Thread nD τ).loc main_arg2))
  h_b1 : W (Proc.devRef .tc main_v23) = row64 (m ((c : Thread nD τ).loc main_arg4))
  h_b2 : W (Proc.devRef .tc main_v24) = row64 (m ((c : Thread nD τ).loc main_arg6))
  h_b3 : W (Proc.devRef .tc main_v25) = row64 (m ((c : Thread nD τ).loc main_arg8))
  h_bf : W (Proc.devRef .tc main_v26) = row10 (m ((c : Thread nD τ).loc main_arg10))
  h_a1 : W (Proc.devRef .tc main_arg1) = m ((c : Thread nD τ).loc main_arg1)
  h_a2 : W (Proc.devRef .tc main_arg2) = m ((c : Thread nD τ).loc main_arg2)
  h_w2 : W (Proc.devRef .tc main_arg5) = m ((c : Thread nD τ).loc main_arg5)
  h_w3 : W (Proc.devRef .tc main_arg7) = m ((c : Thread nD τ).loc main_arg7)
  h_wf : W (Proc.devRef .tc main_arg9) = m ((c : Thread nD τ).loc main_arg9)

/-! ## The first stretch -/

theorem w5_x (c : Dev nD) : W5 m ρ c (Proc.devRef .tc main_arg0) = m ((c : Thread nD τ).loc main_arg0) := by
  show after hostOps0_4 (after hostOps0_3 (after hostOps0_2 (after hostOps0_1 (after hostOps0 (W0 m ρ c))))) (Proc.devRef .tc main_arg0) = _
  after_results_simp <;> rfl

theorem w5_w1 (c : Dev nD) : W5 m ρ c (Proc.devRef .tc main_arg3) = m ((c : Thread nD τ).loc main_arg3) := by
  show after hostOps0_4 (after hostOps0_3 (after hostOps0_2 (after hostOps0_1 (after hostOps0 (W0 m ρ c))))) (Proc.devRef .tc main_arg3) = _
  after_results_simp <;> rfl

/-! ### The two degree norms, stage by stage

  The first norm is computed by the first two stretches and not rewritten by the next two; the second by the third and
  fourth. Each stretch's result is stated over an arbitrary valuation at its entry and then read at the fold. -/

abbrev zero50000 : FVec Ideal S50000 .f32 := broadcastInDim S50000 ![] bcast_S_S50000 (constant (F := Ideal) S_ .f32 0x00000000#32)
abbrev one50000 : FVec Ideal S50000 .f32 := broadcastInDim S50000 ![] bcast_S_S50000 (constant (F := Ideal) S_ .f32 0x3F800000#32)

theorem pos_src (V : Valuation τ sig (Elt Ideal)) : after hostOps0 V (Proc.devRef .tc main_v5)
    = cmpf .ogt (deg (V (Proc.devRef .tc main_arg1))) zero50000 := by
  after_results <;> rfl

theorem inv_src (V : Valuation τ sig (Elt Ideal)) : after hostOps0 V (Proc.devRef .tc main_v8)
    = Host.rsqrt (maximumf (deg (V (Proc.devRef .tc main_arg1))) one50000) := by
  after_results <;> rfl

theorem zero_src (V : Valuation τ sig (Elt Ideal)) : after hostOps0 V (Proc.devRef .tc main_cst_3)
    = constant (F := Ideal) S_ .f32 0x00000000#32 := by
  after_results <;> rfl

theorem where_src (V : Valuation τ sig (Elt Ideal)) : after hostOps0_1 V (Proc.devRef .tc main_v9)
    = select (V (Proc.devRef .tc main_v5)) (V (Proc.devRef .tc main_v8)) (broadcastInDim S50000 ![] bcast_S_S50000 (id (V (Proc.devRef .tc main_cst_3)))) := by
  after_results <;> rfl

theorem pos_dst (V : Valuation τ sig (Elt Ideal)) : after hostOps0_2 V (Proc.devRef .tc main_v15)
    = cmpf .ogt (deg (V (Proc.devRef .tc main_arg2))) zero50000 := by
  after_results <;> rfl

theorem inv_dst (V : Valuation τ sig (Elt Ideal)) : after hostOps0_2 V (Proc.devRef .tc main_v18)
    = Host.rsqrt (maximumf (deg (V (Proc.devRef .tc main_arg2))) one50000) := by
  after_results <;> rfl

theorem zero_dst (V : Valuation τ sig (Elt Ideal)) : after hostOps0_2 V (Proc.devRef .tc main_cst_8)
    = constant (F := Ideal) S_ .f32 0x00000000#32 := by
  after_results <;> rfl

theorem where_dst (V : Valuation τ sig (Elt Ideal)) : after hostOps0_3 V (Proc.devRef .tc main_v19)
    = select (V (Proc.devRef .tc main_v15)) (V (Proc.devRef .tc main_v18)) (broadcastInDim S50000 ![] bcast_S_S50000 (id (V (Proc.devRef .tc main_cst_8)))) := by
  after_results <;> rfl

theorem keep_src2 (V : Valuation τ sig (Elt Ideal)) : after hostOps0_2 V (Proc.devRef .tc main_v9) = V (Proc.devRef .tc main_v9) := by
  after_results

theorem keep_src3 (V : Valuation τ sig (Elt Ideal)) : after hostOps0_3 V (Proc.devRef .tc main_v9) = V (Proc.devRef .tc main_v9) := by
  after_results

theorem keep_a2_0 (V : Valuation τ sig (Elt Ideal)) : after hostOps0 V (Proc.devRef .tc main_arg2) = V (Proc.devRef .tc main_arg2) := by
  after_results

theorem keep_a2_1 (V : Valuation τ sig (Elt Ideal)) : after hostOps0_1 V (Proc.devRef .tc main_arg2) = V (Proc.devRef .tc main_arg2) := by
  after_results

/-- The pair table the fifth stretch writes, from the two norms at its entry. -/
theorem pair_of (V : Valuation τ sig (Elt Ideal)) : after hostOps0_4 V (Proc.devRef .tc main_v22)
    = concatenate S50000x2 1 [⟨S50000x1, broadcastInDim S50000x1 ![0] bcast_S50000_S50000x1_0 (V (Proc.devRef .tc main_v9))⟩,
        ⟨S50000x1, broadcastInDim S50000x1 ![0] bcast_S50000_S50000x1_0 (V (Proc.devRef .tc main_v19))⟩] concatenates_S50000x1_S50000x1_S50000x2_d1 := by
  after_results <;> rfl

/-- The source norm at the fifth stretch's entry. -/
theorem nrm_src (c : Dev nD) : W4 m ρ c (Proc.devRef .tc main_v9) = nrm (m ((c : Thread nD τ).loc main_arg1)) := by
  show after hostOps0_3 (after hostOps0_2 (after hostOps0_1 (after hostOps0 (W0 m ρ c)))) (Proc.devRef .tc main_v9) = _
  rw [keep_src3, keep_src2, where_src, pos_src, inv_src, zero_src]
  rfl

/-- The destination norm at the fifth stretch's entry. -/
theorem nrm_dst (c : Dev nD) : W4 m ρ c (Proc.devRef .tc main_v19) = nrm (m ((c : Thread nD τ).loc main_arg2)) := by
  show after hostOps0_3 (after hostOps0_2 (after hostOps0_1 (after hostOps0 (W0 m ρ c)))) (Proc.devRef .tc main_v19) = _
  rw [where_dst, pos_dst, inv_dst, zero_dst, keep_a2_1, keep_a2_0]
  rfl

set_option maxHeartbeats 4000000 in
theorem base5 (c : Dev nD) : Base m c (W5 m ρ c) where
  h_pair := by
    show after hostOps0_4 (W4 m ρ c) (Proc.devRef .tc main_v22) = _
    rw [pair_of, nrm_src m ρ c, nrm_dst m ρ c]
    rfl
  h_b1 := by
    show after hostOps0_4 (after hostOps0_3 (after hostOps0_2 (after hostOps0_1 (after hostOps0 (W0 m ρ c))))) (Proc.devRef .tc main_v23) = _
    after_results_simp <;> rfl
  h_b2 := by
    show after hostOps0_4 (after hostOps0_3 (after hostOps0_2 (after hostOps0_1 (after hostOps0 (W0 m ρ c))))) (Proc.devRef .tc main_v24) = _
    after_results_simp <;> rfl
  h_b3 := by
    show after hostOps0_4 (after hostOps0_3 (after hostOps0_2 (after hostOps0_1 (after hostOps0 (W0 m ρ c))))) (Proc.devRef .tc main_v25) = _
    after_results_simp <;> rfl
  h_bf := by
    show after hostOps0_4 (after hostOps0_3 (after hostOps0_2 (after hostOps0_1 (after hostOps0 (W0 m ρ c))))) (Proc.devRef .tc main_v26) = _
    after_results_simp <;> rfl
  h_a1 := by
    show after hostOps0_4 (after hostOps0_3 (after hostOps0_2 (after hostOps0_1 (after hostOps0 (W0 m ρ c))))) (Proc.devRef .tc main_arg1) = _
    after_results_simp <;> rfl
  h_a2 := by
    show after hostOps0_4 (after hostOps0_3 (after hostOps0_2 (after hostOps0_1 (after hostOps0 (W0 m ρ c))))) (Proc.devRef .tc main_arg2) = _
    after_results_simp <;> rfl
  h_w2 := by
    show after hostOps0_4 (after hostOps0_3 (after hostOps0_2 (after hostOps0_1 (after hostOps0 (W0 m ρ c))))) (Proc.devRef .tc main_arg5) = _
    after_results_simp <;> rfl
  h_w3 := by
    show after hostOps0_4 (after hostOps0_3 (after hostOps0_2 (after hostOps0_1 (after hostOps0 (W0 m ρ c))))) (Proc.devRef .tc main_arg7) = _
    after_results_simp <;> rfl
  h_wf := by
    show after hostOps0_4 (after hostOps0_3 (after hostOps0_2 (after hostOps0_1 (after hostOps0 (W0 m ρ c))))) (Proc.devRef .tc main_arg9) = _
    after_results_simp <;> rfl

/-! ## The regions keep the base: an input array is never written back, the other buffers are not the region's -/

theorem base6 (c : Dev nD) (h : Base m c (W5 m ρ c)) : Base m c (W6 m ρ c) where
  h_pair := ((W6_arr m ρ c 1).trans (((dat0 (V5 m ρ) c).arrAt_in 1 rfl _).trans (A_eq0 (V5 m ρ) c 1))).trans h.h_pair
  h_b1 := (W6_of_ne m ρ c main_v23 (by decide)).trans h.h_b1
  h_b2 := (W6_of_ne m ρ c main_v24 (by decide)).trans h.h_b2
  h_b3 := (W6_of_ne m ρ c main_v25 (by decide)).trans h.h_b3
  h_bf := (W6_of_ne m ρ c main_v26 (by decide)).trans h.h_bf
  h_a1 := (W6_of_ne m ρ c main_arg1 (by decide)).trans h.h_a1
  h_a2 := (W6_of_ne m ρ c main_arg2 (by decide)).trans h.h_a2
  h_w2 := (W6_of_ne m ρ c main_arg5 (by decide)).trans h.h_w2
  h_w3 := (W6_of_ne m ρ c main_arg7 (by decide)).trans h.h_w3
  h_wf := (W6_of_ne m ρ c main_arg9 (by decide)).trans h.h_wf

theorem base8 (c : Dev nD) (h : Base m c (W7 m ρ c)) : Base m c (W8 m ρ c) where
  h_pair := ((W8_arr m ρ c 1).trans (((dat1 (V7 m ρ) c).arrAt_in 1 rfl _).trans (A_eq1 (V7 m ρ) c 1))).trans h.h_pair
  h_b1 := ((W8_arr m ρ c 2).trans (((dat1 (V7 m ρ) c).arrAt_in 2 rfl _).trans (A_eq1 (V7 m ρ) c 2))).trans h.h_b1
  h_b2 := (W8_of_ne m ρ c main_v24 (by decide)).trans h.h_b2
  h_b3 := (W8_of_ne m ρ c main_v25 (by decide)).trans h.h_b3
  h_bf := (W8_of_ne m ρ c main_v26 (by decide)).trans h.h_bf
  h_a1 := (W8_of_ne m ρ c main_arg1 (by decide)).trans h.h_a1
  h_a2 := (W8_of_ne m ρ c main_arg2 (by decide)).trans h.h_a2
  h_w2 := ((W8_arr m ρ c 3).trans (((dat1 (V7 m ρ) c).arrAt_in 3 rfl _).trans (A_eq1 (V7 m ρ) c 3))).trans h.h_w2
  h_w3 := (W8_of_ne m ρ c main_arg7 (by decide)).trans h.h_w3
  h_wf := (W8_of_ne m ρ c main_arg9 (by decide)).trans h.h_wf

theorem base10 (c : Dev nD) (h : Base m c (W9 m ρ c)) : Base m c (W10 m ρ c) where
  h_pair := ((W10_arr m ρ c 1).trans (((dat2 (V9 m ρ) c).arrAt_in 1 rfl _).trans (A_eq2 (V9 m ρ) c 1))).trans h.h_pair
  h_b1 := (W10_of_ne m ρ c main_v23 (by decide)).trans h.h_b1
  h_b2 := ((W10_arr m ρ c 2).trans (((dat2 (V9 m ρ) c).arrAt_in 2 rfl _).trans (A_eq2 (V9 m ρ) c 2))).trans h.h_b2
  h_b3 := (W10_of_ne m ρ c main_v25 (by decide)).trans h.h_b3
  h_bf := (W10_of_ne m ρ c main_v26 (by decide)).trans h.h_bf
  h_a1 := (W10_of_ne m ρ c main_arg1 (by decide)).trans h.h_a1
  h_a2 := (W10_of_ne m ρ c main_arg2 (by decide)).trans h.h_a2
  h_w2 := (W10_of_ne m ρ c main_arg5 (by decide)).trans h.h_w2
  h_w3 := ((W10_arr m ρ c 3).trans (((dat2 (V9 m ρ) c).arrAt_in 3 rfl _).trans (A_eq2 (V9 m ρ) c 3))).trans h.h_w3
  h_wf := (W10_of_ne m ρ c main_arg9 (by decide)).trans h.h_wf

/-! ## The host stretches between the regions keep the base: they write their own intermediates only -/

set_option maxHeartbeats 4000000 in
theorem base7 (c : Dev nD) (h : Base m c (W6 m ρ c)) : Base m c (W7 m ρ c) where
  h_pair := (show after hostOps1 (W6 m ρ c) (Proc.devRef .tc main_v22) = W6 m ρ c (Proc.devRef .tc main_v22) by after_results).trans h.h_pair
  h_b1 := (show after hostOps1 (W6 m ρ c) (Proc.devRef .tc main_v23) = W6 m ρ c (Proc.devRef .tc main_v23) by after_results).trans h.h_b1
  h_b2 := (show after hostOps1 (W6 m ρ c) (Proc.devRef .tc main_v24) = W6 m ρ c (Proc.devRef .tc main_v24) by after_results).trans h.h_b2
  h_b3 := (show after hostOps1 (W6 m ρ c) (Proc.devRef .tc main_v25) = W6 m ρ c (Proc.devRef .tc main_v25) by after_results).trans h.h_b3
  h_bf := (show after hostOps1 (W6 m ρ c) (Proc.devRef .tc main_v26) = W6 m ρ c (Proc.devRef .tc main_v26) by after_results).trans h.h_bf
  h_a1 := (show after hostOps1 (W6 m ρ c) (Proc.devRef .tc main_arg1) = W6 m ρ c (Proc.devRef .tc main_arg1) by after_results).trans h.h_a1
  h_a2 := (show after hostOps1 (W6 m ρ c) (Proc.devRef .tc main_arg2) = W6 m ρ c (Proc.devRef .tc main_arg2) by after_results).trans h.h_a2
  h_w2 := (show after hostOps1 (W6 m ρ c) (Proc.devRef .tc main_arg5) = W6 m ρ c (Proc.devRef .tc main_arg5) by after_results).trans h.h_w2
  h_w3 := (show after hostOps1 (W6 m ρ c) (Proc.devRef .tc main_arg7) = W6 m ρ c (Proc.devRef .tc main_arg7) by after_results).trans h.h_w3
  h_wf := (show after hostOps1 (W6 m ρ c) (Proc.devRef .tc main_arg9) = W6 m ρ c (Proc.devRef .tc main_arg9) by after_results).trans h.h_wf

set_option maxHeartbeats 4000000 in
theorem base9 (c : Dev nD) (h : Base m c (W8 m ρ c)) : Base m c (W9 m ρ c) where
  h_pair := (show after hostOps2 (W8 m ρ c) (Proc.devRef .tc main_v22) = W8 m ρ c (Proc.devRef .tc main_v22) by after_results).trans h.h_pair
  h_b1 := (show after hostOps2 (W8 m ρ c) (Proc.devRef .tc main_v23) = W8 m ρ c (Proc.devRef .tc main_v23) by after_results).trans h.h_b1
  h_b2 := (show after hostOps2 (W8 m ρ c) (Proc.devRef .tc main_v24) = W8 m ρ c (Proc.devRef .tc main_v24) by after_results).trans h.h_b2
  h_b3 := (show after hostOps2 (W8 m ρ c) (Proc.devRef .tc main_v25) = W8 m ρ c (Proc.devRef .tc main_v25) by after_results).trans h.h_b3
  h_bf := (show after hostOps2 (W8 m ρ c) (Proc.devRef .tc main_v26) = W8 m ρ c (Proc.devRef .tc main_v26) by after_results).trans h.h_bf
  h_a1 := (show after hostOps2 (W8 m ρ c) (Proc.devRef .tc main_arg1) = W8 m ρ c (Proc.devRef .tc main_arg1) by after_results).trans h.h_a1
  h_a2 := (show after hostOps2 (W8 m ρ c) (Proc.devRef .tc main_arg2) = W8 m ρ c (Proc.devRef .tc main_arg2) by after_results).trans h.h_a2
  h_w2 := (show after hostOps2 (W8 m ρ c) (Proc.devRef .tc main_arg5) = W8 m ρ c (Proc.devRef .tc main_arg5) by after_results).trans h.h_w2
  h_w3 := (show after hostOps2 (W8 m ρ c) (Proc.devRef .tc main_arg7) = W8 m ρ c (Proc.devRef .tc main_arg7) by after_results).trans h.h_w3
  h_wf := (show after hostOps2 (W8 m ρ c) (Proc.devRef .tc main_arg9) = W8 m ρ c (Proc.devRef .tc main_arg9) by after_results).trans h.h_wf

set_option maxHeartbeats 4000000 in
theorem base11 (c : Dev nD) (h : Base m c (W10 m ρ c)) : Base m c (W11 m ρ c) where
  h_pair := (show after hostOps3 (W10 m ρ c) (Proc.devRef .tc main_v22) = W10 m ρ c (Proc.devRef .tc main_v22) by after_results).trans h.h_pair
  h_b1 := (show after hostOps3 (W10 m ρ c) (Proc.devRef .tc main_v23) = W10 m ρ c (Proc.devRef .tc main_v23) by after_results).trans h.h_b1
  h_b2 := (show after hostOps3 (W10 m ρ c) (Proc.devRef .tc main_v24) = W10 m ρ c (Proc.devRef .tc main_v24) by after_results).trans h.h_b2
  h_b3 := (show after hostOps3 (W10 m ρ c) (Proc.devRef .tc main_v25) = W10 m ρ c (Proc.devRef .tc main_v25) by after_results).trans h.h_b3
  h_bf := (show after hostOps3 (W10 m ρ c) (Proc.devRef .tc main_v26) = W10 m ρ c (Proc.devRef .tc main_v26) by after_results).trans h.h_bf
  h_a1 := (show after hostOps3 (W10 m ρ c) (Proc.devRef .tc main_arg1) = W10 m ρ c (Proc.devRef .tc main_arg1) by after_results).trans h.h_a1
  h_a2 := (show after hostOps3 (W10 m ρ c) (Proc.devRef .tc main_arg2) = W10 m ρ c (Proc.devRef .tc main_arg2) by after_results).trans h.h_a2
  h_w2 := (show after hostOps3 (W10 m ρ c) (Proc.devRef .tc main_arg5) = W10 m ρ c (Proc.devRef .tc main_arg5) by after_results).trans h.h_w2
  h_w3 := (show after hostOps3 (W10 m ρ c) (Proc.devRef .tc main_arg7) = W10 m ρ c (Proc.devRef .tc main_arg7) by after_results).trans h.h_w3
  h_wf := (show after hostOps3 (W10 m ρ c) (Proc.devRef .tc main_arg9) = W10 m ρ c (Proc.devRef .tc main_arg9) by after_results).trans h.h_wf

/-! ## The neighbour sums the host stretches compute -/

set_option maxHeartbeats 4000000 in
theorem agg7 (c : Dev nD) : W7 m ρ c (Proc.devRef .tc main_v37)
    = agg (W6 m ρ c (Proc.devRef .tc main_v27)) (W6 m ρ c (Proc.devRef .tc main_arg1)) (W6 m ρ c (Proc.devRef .tc main_arg2)) := by
  show after hostOps1 (W6 m ρ c) (Proc.devRef .tc main_v37) = _
  after_results <;> rfl

set_option maxHeartbeats 4000000 in
theorem agg9 (c : Dev nD) : W9 m ρ c (Proc.devRef .tc main_v48)
    = agg (W8 m ρ c (Proc.devRef .tc main_v38)) (W8 m ρ c (Proc.devRef .tc main_arg1)) (W8 m ρ c (Proc.devRef .tc main_arg2)) := by
  show after hostOps2 (W8 m ρ c) (Proc.devRef .tc main_v48) = _
  after_results <;> rfl

set_option maxHeartbeats 4000000 in
theorem agg11 (c : Dev nD) : W11 m ρ c (Proc.devRef .tc main_v59)
    = agg (W10 m ρ c (Proc.devRef .tc main_v49)) (W10 m ρ c (Proc.devRef .tc main_arg1)) (W10 m ρ c (Proc.devRef .tc main_arg2)) := by
  show after hostOps3 (W10 m ρ c) (Proc.devRef .tc main_v59) = _
  after_results <;> rfl

/-! ## The regions' arrays -/

theorem arr6 (c : Dev nD) : W6 m ρ c (Proc.devRef .tc main_v27)
    = h1 (m ((c : Thread nD τ).loc main_arg0)) (m ((c : Thread nD τ).loc main_arg1)) (m ((c : Thread nD τ).loc main_arg2)) (m ((c : Thread nD τ).loc main_arg3)) := by
  refine (W6_arr m ρ c 3).trans ((Blocks0.arr (V5 m ρ) c).trans ?_)
  show first (W5 m ρ c (Proc.devRef .tc main_arg0)) (W5 m ρ c (Proc.devRef .tc main_v22)) (W5 m ρ c (Proc.devRef .tc main_arg3)) = _
  rw [w5_x, w5_w1, (base5 m ρ c).h_pair]
  rfl

theorem arr8 (c : Dev nD) (h : Base m c (W6 m ρ c)) (hb : Base m c (W7 m ρ c)) (H : FVec Ideal S50000x64 .f32)
    (hH : W6 m ρ c (Proc.devRef .tc main_v27) = H) :
    W8 m ρ c (Proc.devRef .tc main_v38)
      = hmid H (m ((c : Thread nD τ).loc main_arg1)) (m ((c : Thread nD τ).loc main_arg2)) (m ((c : Thread nD τ).loc main_arg4)) (m ((c : Thread nD τ).loc main_arg5)) := by
  refine (W8_arr m ρ c 4).trans ((Blocks1.arr (V7 m ρ) c).trans ?_)
  show middle (W7 m ρ c (Proc.devRef .tc main_v37)) (W7 m ρ c (Proc.devRef .tc main_v22)) (W7 m ρ c (Proc.devRef .tc main_v23)) (W7 m ρ c (Proc.devRef .tc main_arg5)) = _
  rw [agg7, hH, h.h_a1, h.h_a2, hb.h_pair, hb.h_b1, hb.h_w2]
  rfl

theorem arr10 (c : Dev nD) (h : Base m c (W8 m ρ c)) (hb : Base m c (W9 m ρ c)) (H : FVec Ideal S50000x64 .f32)
    (hH : W8 m ρ c (Proc.devRef .tc main_v38) = H) :
    W10 m ρ c (Proc.devRef .tc main_v49)
      = hmid H (m ((c : Thread nD τ).loc main_arg1)) (m ((c : Thread nD τ).loc main_arg2)) (m ((c : Thread nD τ).loc main_arg6)) (m ((c : Thread nD τ).loc main_arg7)) := by
  refine (W10_arr m ρ c 4).trans ((Blocks2.arr (V9 m ρ) c).trans ?_)
  show middle (W9 m ρ c (Proc.devRef .tc main_v48)) (W9 m ρ c (Proc.devRef .tc main_v22)) (W9 m ρ c (Proc.devRef .tc main_v24)) (W9 m ρ c (Proc.devRef .tc main_arg7)) = _
  rw [agg9, hH, h.h_a1, h.h_a2, hb.h_pair, hb.h_b2, hb.h_w3]
  rfl

theorem arr12 (c : Dev nD) (h : Base m c (W10 m ρ c)) (hb : Base m c (W11 m ρ c)) (H : FVec Ideal S50000x64 .f32)
    (hH : W10 m ρ c (Proc.devRef .tc main_v49) = H) :
    W12 m ρ c (Proc.devRef .tc main_v60)
      = hout H (m ((c : Thread nD τ).loc main_arg1)) (m ((c : Thread nD τ).loc main_arg2)) (m ((c : Thread nD τ).loc main_arg8)) (m ((c : Thread nD τ).loc main_arg9)) (m ((c : Thread nD τ).loc main_arg10)) := by
  refine (W12_arr m ρ c 5).trans ((Blocks3.arr (V11 m ρ) c).trans ?_)
  show last (W11 m ρ c (Proc.devRef .tc main_v59)) (W11 m ρ c (Proc.devRef .tc main_v22)) (W11 m ρ c (Proc.devRef .tc main_v25)) (W11 m ρ c (Proc.devRef .tc main_arg9)) (W11 m ρ c (Proc.devRef .tc main_v26)) = _
  rw [agg11, hH, h.h_a1, h.h_a2, hb.h_pair, hb.h_b3, hb.h_wf, hb.h_bf]
  rfl

/-- The result array after the last region is the composition of the launch arguments. -/
theorem result_eq (c : Dev nD) : W12 m ρ c (Proc.devRef .tc main_v60)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  have b5 := base5 m ρ c
  have b6 := base6 m ρ c b5
  have b7 := base7 m ρ c b6
  have b8 := base8 m ρ c b7
  have b9 := base9 m ρ c b8
  have b10 := base10 m ρ c b9
  have b11 := base11 m ρ c b10
  exact arr12 m ρ c b10 b11 _ (arr10 m ρ c b8 b9 _ (arr8 m ρ c b6 b7 _ (arr6 m ρ c)))

end Cert.KernelIdeal.Chain

end
-- ==== Proof.RefModel.lean ====
/-
  The reference program's result as a composition of named pieces: the two degree norms, the neighbour sum, the three
  dense layers. The generated run states the result as one long term; it is this composition, by unfolding.
-/
import proofs.«171301_j45595372815203_1_alg».proof.Proof.RefRunP
import Idealize.ShloMosaic.PureOps.Ideal

noncomputable section

namespace Cert.ReferenceIdeal.Model

open Cert.ReferenceIdeal Cert.ReferenceIdeal.Gen
open Idealize.ShloMosaic Idealize.ShloMosaic.TcCoe Idealize.SL.Sem

/-- How many edges name each node: ones scattered and added at an index vector. -/
def deg (idx : IVec S800000 32) : FVec Ideal S50000 .f32 :=
  Host.scatterAdd scatter_S50000_S800000x1_S800000_n_0_0_1 (broadcastInDim S50000 ![] bcast_S_S50000 (constant (F := Ideal) S_ .f32 0x00000000#32)) (broadcastInDim S800000x1 ![0] bcast_S800000_S800000x1_0 idx) (broadcastInDim S800000 ![] bcast_S_S800000 (constant (F := Ideal) S_ .f32 0x3F800000#32))

/-- The inverse square root of the degree where it is positive, zero elsewhere. -/
def nrm (idx : IVec S800000 32) : FVec Ideal S50000 .f32 :=
  select (cmpf .ogt (deg idx) (broadcastInDim S50000 ![] bcast_S_S50000 (constant (F := Ideal) S_ .f32 0x00000000#32))) (Host.rsqrt (maximumf (deg idx) (broadcastInDim S50000 ![] bcast_S_S50000 (constant (F := Ideal) S_ .f32 0x3F800000#32)))) (broadcastInDim S50000 ![] bcast_S_S50000 (id (constant (F := Ideal) S_ .f32 0x00000000#32)))

/-- A negative source index counted from the end. -/
def wrap (s : IVec S800000 32) : IVec S800000 32 :=
  select (cmpi .slt s (broadcastInDim S800000 ![] bcast_S_S800000 (constantI S_ 32 0#32))) (addi s (broadcastInDim S800000 ![] bcast_S_S800000 (constantI S_ 32 50000#32))) s

/-- The neighbour sum: rows gathered at the source indices, scattered and added at the destination indices. -/
def agg (h : FVec Ideal S50000x64 .f32) (s d : IVec S800000 32) : FVec Ideal S50000x64 .f32 :=
  Host.scatterAdd scatter_S50000x64_S800000x1_S800000x64_1_0_0_1 (broadcastInDim S50000x64 ![] bcast_S_S50000x64 (constant (F := Ideal) S_ .f32 0x00000000#32)) (broadcastInDim S800000x1 ![0] bcast_S800000_S800000x1_0 d) (Host.gather gather_S50000x64_S800000x1_S800000x64_1_0_n_n_0_1_164 h (broadcastInDim S800000x1 ![0] bcast_S800000_S800000x1_0 (wrap s)))

/-- A vector over the nodes spread over 64 columns. -/
def spread (v : FVec Ideal S50000 .f32) : FVec Ideal S50000x64 .f32 :=
  broadcastInDim S50000x64 ![0, 1] bcast_S50000x1_S50000x64_0_1 (broadcastInDim S50000x1 ![0] bcast_S50000_S50000x1_0 v)

/-- A bias vector spread over the rows. -/
def spreadRow (b : FVec Ideal S64 .f32) : FVec Ideal S50000x64 .f32 :=
  broadcastInDim S50000x64 ![0, 1] bcast_S1x64_S50000x64_0_1 (broadcastInDim S1x64 ![1] bcast_S64_S1x64_1 b)

/-- The output bias spread over the rows. -/
def spreadRow10 (b : FVec Ideal S10 .f32) : FVec Ideal S50000x10 .f32 :=
  broadcastInDim S50000x10 ![0, 1] bcast_S1x10_S50000x10_0_1 (broadcastInDim S1x10 ![1] bcast_S10_S1x10_1 b)

/-- The first layer's product. -/
def layer0 (x : FVec Ideal S50000x64 .f32) (s : IVec S800000 32) (W : FVec Ideal S64x64 .f32) : FVec Ideal S50000x64 .f32 :=
  Host.dotGeneral dot_S50000x64_S64x64_S50000x64_1_0_0_1_n_n none (mulf x (spread (nrm s))) W

/-- A layer's activation from the previous layer's product. -/
def act (h : FVec Ideal S50000x64 .f32) (s d : IVec S800000 32) (b : FVec Ideal S64 .f32) : FVec Ideal S50000x64 .f32 :=
  Host.tanh (addf (mulf (agg h s d) (spread (nrm d))) (spreadRow b))

/-- A middle layer's product. -/
def layerMid (h : FVec Ideal S50000x64 .f32) (s d : IVec S800000 32) (b : FVec Ideal S64 .f32) (W : FVec Ideal S64x64 .f32) : FVec Ideal S50000x64 .f32 :=
  Host.dotGeneral dot_S50000x64_S64x64_S50000x64_1_0_0_1_n_n none (mulf (act h s d b) (spread (nrm s))) W

/-- The output layer. -/
def out (h : FVec Ideal S50000x64 .f32) (s d : IVec S800000 32) (b : FVec Ideal S64 .f32) (W : FVec Ideal S64x10 .f32) (bf : FVec Ideal S10 .f32) : FVec Ideal S50000x10 .f32 :=
  addf (Host.dotGeneral dot_S50000x64_S64x10_S50000x10_1_0_0_1_n_n none (act h s d b) W) (spreadRow10 bf)

/-- The whole network. -/
def result (x : FVec Ideal S50000x64 .f32) (s d : IVec S800000 32) (W1 : FVec Ideal S64x64 .f32) (b1 : FVec Ideal S64 .f32)
    (W2 : FVec Ideal S64x64 .f32) (b2 : FVec Ideal S64 .f32) (W3 : FVec Ideal S64x64 .f32) (b3 : FVec Ideal S64 .f32)
    (Wfc : FVec Ideal S64x10 .f32) (bfc : FVec Ideal S10 .f32) : FVec Ideal S50000x10 .f32 :=
  out (layerMid (layerMid (layer0 x s W1) s d b1 W2) s d b2 W3) s d b3 Wfc bfc

set_option maxRecDepth 16384 in
/-- The run's result term is the composition. -/
theorem res_eq (m : (ℓ : Loc nD τ sig) → Buf (Elt Ideal) ℓ) (c : Dev nD) :
    Cert.ReferenceIdeal.ValueP.res_main_v86 (F := Ideal) m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.ValueP.res_main_v86
  rfl

end Cert.ReferenceIdeal.Model

end
-- ==== Proof.RefStages.lean ====
/-
  The reference program's three dense stages, as the row-by-row stages of `Spec.lean`.

  The reference scales a table by a column spread over its 64 columns, adds a bias row spread over the rows, applies
  tanh and multiplies by a weight table on the host. Read at an index, the host's product is the plain sum over the
  contracted index and every spread reads its one entry, so each stage is the stage of `Spec.lean` over whatever pair
  table and bias rows hold the same entries.
-/
import proofs.«171301_j45595372815203_1_alg».proof.Proof.Gen.ReferenceIdeal
import proofs.«171301_j45595372815203_1_alg».proof.Proof.Spec
import proofs.«171301_j45595372815203_1_alg».proof.Proof.LibPlainDot
import Idealize.ShloMosaic.Lib.Pipeline.Value
import Idealize.ShloMosaic.PureOps.Ideal.Laws

noncomputable section

namespace Cert.ReferenceIdeal.Stages

open Cert.ReferenceIdeal Cert.ReferenceIdeal.Gen Cert.Gcn
open Idealize.ShloMosaic Idealize.ShloMosaic.ValueIdx
open scoped BigOperators

/-! ## The two products' dimension numbers send (r, c) and k to (r, k) and (k, c) -/

theorem l64_0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl
theorem l64_1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q
theorem r64_0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q
theorem r64_1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

theorem l10_0 (i : S50000x10.Idx) (q : dot_S50000x64_S64x10_S50000x10_1_0_0_1_n_n.contr.Idx) :
    (dot_S50000x64_S64x10_S50000x10_1_0_0_1_n_n.lhsIdx i q 0).val = (i 0).val := by
  unfold DotDims.lhsIdx
  rw [dif_neg (show ¬(0 : Fin S50000x64.rank) ∈ dot_S50000x64_S64x10_S50000x10_1_0_0_1_n_n.lhsBatch by decide), dif_pos (show (0 : Fin S50000x64.rank) ∈ dot_S50000x64_S64x10_S50000x10_1_0_0_1_n_n.lhsNonContracting by decide)]
  rfl
theorem l10_1 (i : S50000x10.Idx) (q : dot_S50000x64_S64x10_S50000x10_1_0_0_1_n_n.contr.Idx) :
    (dot_S50000x64_S64x10_S50000x10_1_0_0_1_n_n.lhsIdx i q 1).val = (q ⟨0, by decide⟩).val :=
  dot_S50000x64_S64x10_S50000x10_1_0_0_1_n_n.lhsIdx_val_of_single rfl i q
theorem r10_0 (i : S50000x10.Idx) (q : dot_S50000x64_S64x10_S50000x10_1_0_0_1_n_n.contr.Idx) :
    (dot_S50000x64_S64x10_S50000x10_1_0_0_1_n_n.rhsIdx i q 0).val = (q ⟨0, by decide⟩).val :=
  dot_S50000x64_S64x10_S50000x10_1_0_0_1_n_n.rhsIdx_val_of_single rfl i q
theorem r10_1 (i : S50000x10.Idx) (q : dot_S50000x64_S64x10_S50000x10_1_0_0_1_n_n.contr.Idx) :
    (dot_S50000x64_S64x10_S50000x10_1_0_0_1_n_n.rhsIdx i q 1).val = (i 1).val := by
  unfold DotDims.rhsIdx
  rw [dif_neg (show ¬(1 : Fin S64x10.rank) ∈ dot_S50000x64_S64x10_S50000x10_1_0_0_1_n_n.rhsBatch by decide), dif_pos (show (1 : Fin S64x10.rank) ∈ dot_S50000x64_S64x10_S50000x10_1_0_0_1_n_n.rhsNonContracting by decide)]
  rfl

/-- The host's product of a [50000,64] table with a [64,64] table at (r, q). -/
theorem prod64 (l : FVec Ideal S50000x64 .f32) (w : FVec Ideal S64x64 .f32) (r : Fin 50000) (q : Fin 64) :
    Host.dotGeneral dot_S50000x64_S64x64_S50000x64_1_0_0_1_n_n none l w (ix2 r q) = ∑ k : Fin 64, l (ix2 r k) * w (ix2 k q) := by
  simp only [Host.dotGeneral]
  exact (Ideal.dotGeneral_apply _ _ _ l w (ix2 r q)).trans
    (PlainDot.sum_contr_eq dot_S50000x64_S64x64_S50000x64_1_0_0_1_n_n rfl rfl l64_0 l64_1 r64_0 r64_1 l w (ix2 r q))

/-- The host's product of a [50000,64] table with a [64,10] table at (r, q). -/
theorem prod10 (l : FVec Ideal S50000x64 .f32) (w : FVec Ideal S64x10 .f32) (r : Fin 50000) (q : Fin 10) :
    Host.dotGeneral dot_S50000x64_S64x10_S50000x10_1_0_0_1_n_n none l w (ix2 r q) = ∑ k : Fin 64, l (ix2 r k) * w (ix2 k q) := by
  simp only [Host.dotGeneral]
  exact (Ideal.dotGeneral_apply _ _ _ l w (ix2 r q)).trans
    (PlainDot.sum_contr_eq dot_S50000x64_S64x10_S50000x10_1_0_0_1_n_n rfl rfl l10_0 l10_1 r10_0 r10_1 l w (ix2 r q))

/-! ## The three stages -/

/-- First stage: `sc` is the source norm spread over the columns, `NP` any pair table with that norm in column 0. -/
theorem first_stage (x sc : FVec Ideal S50000x64 .f32) (W : FVec Ideal S64x64 .f32) (NP : Tab 50000 2)
    (hs : ∀ (r : Fin 50000) (k : Fin 64), sc (ix2 r k) = NP (ix2 r (0 : Fin 2))) :
    Host.dotGeneral dot_S50000x64_S64x64_S50000x64_1_0_0_1_n_n none (mulf x sc) W = first x NP W := by
  funext i
  obtain ⟨r, q, rfl⟩ : ∃ (r : Fin 50000) (q : Fin 64), i = ix2 r q := ⟨i 0, i 1, eq_ix2 i⟩
  rw [prod64, first_ix2]
  unfold firstAt
  refine Finset.sum_congr rfl fun k _ => ?_
  show (x (ix2 r k) * sc (ix2 r k)) * W (ix2 k q) = _
  rw [hs r k]

/-- Middle stage: `dsc`, `ssc` the two norms spread over the columns, `bsc` the bias spread over the rows. -/
theorem middle_stage (a dsc bsc ssc : FVec Ideal S50000x64 .f32) (W : FVec Ideal S64x64 .f32) (NP : Tab 50000 2) (B : Tab 1 64)
    (hd : ∀ (r : Fin 50000) (k : Fin 64), dsc (ix2 r k) = NP (ix2 r (1 : Fin 2)))
    (hb : ∀ (r : Fin 50000) (k : Fin 64), bsc (ix2 r k) = B (ix2 (0 : Fin 1) k))
    (hs : ∀ (r : Fin 50000) (k : Fin 64), ssc (ix2 r k) = NP (ix2 r (0 : Fin 2))) :
    Host.dotGeneral dot_S50000x64_S64x64_S50000x64_1_0_0_1_n_n none (mulf (Host.tanh (addf (mulf a dsc) bsc)) ssc) W = middle a NP B W := by
  funext i
  obtain ⟨r, q, rfl⟩ : ∃ (r : Fin 50000) (q : Fin 64), i = ix2 r q := ⟨i 0, i 1, eq_ix2 i⟩
  rw [prod64, middle_ix2]
  unfold middleAt
  refine Finset.sum_congr rfl fun k _ => ?_
  show (Ideal.tanh (a (ix2 r k) * dsc (ix2 r k) + bsc (ix2 r k)) * ssc (ix2 r k)) * W (ix2 k q) = _
  rw [hd r k, hb r k, hs r k]

/-- Last stage: `fsc` the output bias spread over the rows. -/
theorem last_stage (a dsc bsc : FVec Ideal S50000x64 .f32) (W : FVec Ideal S64x10 .f32) (fsc : FVec Ideal S50000x10 .f32)
    (NP : Tab 50000 2) (B : Tab 1 64) (BF : Tab 1 10)
    (hd : ∀ (r : Fin 50000) (k : Fin 64), dsc (ix2 r k) = NP (ix2 r (1 : Fin 2)))
    (hb : ∀ (r : Fin 50000) (k : Fin 64), bsc (ix2 r k) = B (ix2 (0 : Fin 1) k))
    (hf : ∀ (r : Fin 50000) (q : Fin 10), fsc (ix2 r q) = BF (ix2 (0 : Fin 1) q)) :
    addf (Host.dotGeneral dot_S50000x64_S64x10_S50000x10_1_0_0_1_n_n none (Host.tanh (addf (mulf a dsc) bsc)) W) fsc = last a NP B W BF := by
  funext i
  obtain ⟨r, q, rfl⟩ : ∃ (r : Fin 50000) (q : Fin 10), i = ix2 r q := ⟨i 0, i 1, eq_ix2 i⟩
  show Host.dotGeneral dot_S50000x64_S64x10_S50000x10_1_0_0_1_n_n none (Host.tanh (addf (mulf a dsc) bsc)) W (ix2 r q) + fsc (ix2 r q) = _
  rw [prod10, last_ix2, hf r q]
  unfold lastAt
  refine congrArg (· + BF (ix2 (0 : Fin 1) q)) (Finset.sum_congr rfl fun k _ => ?_)
  show Ideal.tanh (a (ix2 r k) * dsc (ix2 r k) + bsc (ix2 r k)) * W (ix2 k q) = _
  rw [hd r k, hb r k]

/-! ## The spreads, read at an index -/

/-- A vector over the nodes spread over 64 columns: at (r, k), the vector at r. -/
theorem spread_col (v : FVec Ideal S50000 .f32) (r : Fin 50000) (k : Fin 64) :
    broadcastInDim S50000x64 ![0, 1] bcast_S50000x1_S50000x64_0_1 (broadcastInDim S50000x1 ![0] bcast_S50000_S50000x1_0 v) (ix2 r k) = v (ix1 r) := by
  rw [broadcastInDim_apply _ bcast_S50000x1_S50000x64_0_1 _ (ix2 r k) (ix2 r (0 : Fin 1)) (fun a => by
      match a with
      | ⟨0, _⟩ => show r.val = if (50000 : Nat) = 1 then 0 else r.val; rw [if_neg (by decide)]
      | ⟨1, _⟩ => show 0 = if (1 : Nat) = 1 then 0 else k.val; rw [if_pos rfl])]
  exact broadcastInDim_apply _ bcast_S50000_S50000x1_0 v (ix2 r (0 : Fin 1)) (ix1 r) (fun a => by
      match a with
      | ⟨0, _⟩ => show r.val = if (50000 : Nat) = 1 then 0 else r.val; rw [if_neg (by decide)])

/-- A bias vector spread over the 50000 rows: at (r, k), the vector at k. -/
theorem spread_row64 (b : FVec Ideal S64 .f32) (r : Fin 50000) (k : Fin 64) :
    broadcastInDim S50000x64 ![0, 1] bcast_S1x64_S50000x64_0_1 (broadcastInDim S1x64 ![1] bcast_S64_S1x64_1 b) (ix2 r k) = b (ix1 k) := by
  rw [broadcastInDim_apply _ bcast_S1x64_S50000x64_0_1 _ (ix2 r k) (ix2 (0 : Fin 1) k) (fun a => by
      match a with
      | ⟨0, _⟩ => show 0 = if (1 : Nat) = 1 then 0 else r.val; rw [if_pos rfl]
      | ⟨1, _⟩ => show k.val = if (64 : Nat) = 1 then 0 else k.val; rw [if_neg (by decide)])]
  exact broadcastInDim_apply _ bcast_S64_S1x64_1 b (ix2 (0 : Fin 1) k) (ix1 k) (fun a => by
      match a with
      | ⟨0, _⟩ => show k.val = if (64 : Nat) = 1 then 0 else k.val; rw [if_neg (by decide)])

/-- The output bias spread over the 50000 rows: at (r, q), the vector at q. -/
theorem spread_row10 (b : FVec Ideal S10 .f32) (r : Fin 50000) (q : Fin 10) :
    broadcastInDim S50000x10 ![0, 1] bcast_S1x10_S50000x10_0_1 (broadcastInDim S1x10 ![1] bcast_S10_S1x10_1 b) (ix2 r q) = b (ix1 q) := by
  rw [broadcastInDim_apply _ bcast_S1x10_S50000x10_0_1 _ (ix2 r q) (ix2 (0 : Fin 1) q) (fun a => by
      match a with
      | ⟨0, _⟩ => show 0 = if (1 : Nat) = 1 then 0 else r.val; rw [if_pos rfl]
      | ⟨1, _⟩ => show q.val = if (10 : Nat) = 1 then 0 else q.val; rw [if_neg (by decide)])]
  exact broadcastInDim_apply _ bcast_S10_S1x10_1 b (ix2 (0 : Fin 1) q) (ix1 q) (fun a => by
      match a with
      | ⟨0, _⟩ => show q.val = if (10 : Nat) = 1 then 0 else q.val; rw [if_neg (by decide)])

end Cert.ReferenceIdeal.Stages

end
-- ==== Proof.Bridge.lean ====
/-
  The two compositions are one function of the arguments.

  Both programs compute the same degree norms and the same neighbour sums on the host (the same operations with the
  same dimension numbers), and each dense layer of the reference is the row-by-row stage the kernel regions compute:
  the reference spreads a norm over the columns where the kernel reads a column of the pair table, and spreads a bias
  over the rows where the kernel reads the bias as a one-row table. No algebraic law beyond that is used, and no
  finiteness of the inputs.
-/
import proofs.«171301_j45595372815203_1_alg».proof.Proof.RefModel
import proofs.«171301_j45595372815203_1_alg».proof.Proof.RefStages
import proofs.«171301_j45595372815203_1_alg».proof.Proof.KModel
import Idealize.ShloMosaic.Lib.Pipeline.Value
import Idealize.ShloMosaic.Lib.ValueLayout

set_option maxRecDepth 16384

noncomputable section

namespace Cert.Bridge

open Cert.Gcn
open Idealize.ShloMosaic Idealize.ShloMosaic.ValueIdx

/-- The degree norm is computed alike by both programs. -/
theorem nrm_eq (s : IVec (⟨1, ![800000]⟩ : Shape) 32) : Cert.ReferenceIdeal.Model.nrm s = Cert.KernelIdeal.Model.nrm s := rfl

/-- The neighbour sum is computed alike by both programs. -/
theorem agg_eq (h : FVec Ideal (⟨2, ![50000, 64]⟩ : Shape) .f32) (s d : IVec (⟨1, ![800000]⟩ : Shape) 32) :
    Cert.ReferenceIdeal.Model.agg h s d = Cert.KernelIdeal.Model.agg h s d := rfl

/-- Column 0 of the pair table is the source norm. -/
theorem pair_col0 (s d : IVec (⟨1, ![800000]⟩ : Shape) 32) (r : Fin 50000) :
    Cert.KernelIdeal.Model.pair s d (ix2 r (0 : Fin 2)) = Cert.KernelIdeal.Model.nrm s (ix1 r) := by
  unfold Cert.KernelIdeal.Model.pair
  refine (concatenate_pair_apply_left (t := (⟨2, ![50000, 2]⟩ : Shape)) (s₁ := (⟨2, ![50000, 1]⟩ : Shape)) (s₂ := (⟨2, ![50000, 1]⟩ : Shape)) (1 : Fin 2) _ _
    Cert.KernelIdeal.Gen.concatenates_S50000x1_S50000x1_S50000x2_d1 (ix2 r (0 : Fin 2)) rfl (ix2 r (0 : Fin 1))
    (fun b => by match b with | ⟨0, _⟩ => rfl | ⟨1, _⟩ => rfl)).trans ?_
  exact broadcastInDim_apply _ Cert.KernelIdeal.Gen.bcast_S50000_S50000x1_0 _ (ix2 r (0 : Fin 1)) (ix1 r) (fun a => by
    match a with
    | ⟨0, _⟩ => show r.val = if (50000 : Nat) = 1 then 0 else r.val; rw [if_neg (by decide)])

/-- Column 1 of the pair table is the destination norm. -/
theorem pair_col1 (s d : IVec (⟨1, ![800000]⟩ : Shape) 32) (r : Fin 50000) :
    Cert.KernelIdeal.Model.pair s d (ix2 r (1 : Fin 2)) = Cert.KernelIdeal.Model.nrm d (ix1 r) := by
  unfold Cert.KernelIdeal.Model.pair
  refine (concatenate_pair_apply_right (t := (⟨2, ![50000, 2]⟩ : Shape)) (s₁ := (⟨2, ![50000, 1]⟩ : Shape)) (s₂ := (⟨2, ![50000, 1]⟩ : Shape)) (1 : Fin 2) _ _
    Cert.KernelIdeal.Gen.concatenates_S50000x1_S50000x1_S50000x2_d1 (ix2 r (1 : Fin 2)) rfl rfl (ix2 r (0 : Fin 1))
    (fun b hb => by
      match b with
      | ⟨0, _⟩ => rfl
      | ⟨1, _⟩ => exact absurd rfl hb)
    rfl).trans ?_
  exact broadcastInDim_apply _ Cert.KernelIdeal.Gen.bcast_S50000_S50000x1_0 _ (ix2 r (0 : Fin 1)) (ix1 r) (fun a => by
    match a with
    | ⟨0, _⟩ => show r.val = if (50000 : Nat) = 1 then 0 else r.val; rw [if_neg (by decide)])

/-- A bias vector as a one-row table, at (0, k). -/
theorem row64_at (b : FVec Ideal (⟨1, ![64]⟩ : Shape) .f32) (k : Fin 64) :
    Cert.KernelIdeal.Model.row64 b (ix2 (0 : Fin 1) k) = b (ix1 k) :=
  shapeCast_a_1a_apply b Cert.KernelIdeal.Gen.shapeCasts_S64_S1x64 (0 : Fin 1) k

/-- The output bias as a one-row table, at (0, q). -/
theorem row10_at (b : FVec Ideal (⟨1, ![10]⟩ : Shape) .f32) (q : Fin 10) :
    Cert.KernelIdeal.Model.row10 b (ix2 (0 : Fin 1) q) = b (ix1 q) :=
  shapeCast_a_1a_apply b Cert.KernelIdeal.Gen.shapeCasts_S10_S1x10 (0 : Fin 1) q

/-- The first layer. -/
theorem layer0_eq (x : FVec Ideal (⟨2, ![50000, 64]⟩ : Shape) .f32) (s d : IVec (⟨1, ![800000]⟩ : Shape) 32) (W : FVec Ideal (⟨2, ![64, 64]⟩ : Shape) .f32) :
    Cert.ReferenceIdeal.Model.layer0 x s W = Cert.KernelIdeal.Model.h1 x s d W := by
  unfold Cert.ReferenceIdeal.Model.layer0 Cert.KernelIdeal.Model.h1 Cert.ReferenceIdeal.Model.spread
  exact Cert.ReferenceIdeal.Stages.first_stage x _ W (Cert.KernelIdeal.Model.pair s d) (fun r k => by
    rw [Cert.ReferenceIdeal.Stages.spread_col, pair_col0, nrm_eq])

/-- A middle layer. -/
theorem layerMid_eq (h : FVec Ideal (⟨2, ![50000, 64]⟩ : Shape) .f32) (s d : IVec (⟨1, ![800000]⟩ : Shape) 32)
    (b : FVec Ideal (⟨1, ![64]⟩ : Shape) .f32) (W : FVec Ideal (⟨2, ![64, 64]⟩ : Shape) .f32) :
    Cert.ReferenceIdeal.Model.layerMid h s d b W = Cert.KernelIdeal.Model.hmid h s d b W := by
  unfold Cert.ReferenceIdeal.Model.layerMid Cert.KernelIdeal.Model.hmid Cert.ReferenceIdeal.Model.act Cert.ReferenceIdeal.Model.spread Cert.ReferenceIdeal.Model.spreadRow
  rw [agg_eq]
  exact Cert.ReferenceIdeal.Stages.middle_stage _ _ _ _ W (Cert.KernelIdeal.Model.pair s d) (Cert.KernelIdeal.Model.row64 b)
    (fun r k => by rw [Cert.ReferenceIdeal.Stages.spread_col, pair_col1, nrm_eq])
    (fun r k => by rw [Cert.ReferenceIdeal.Stages.spread_row64, row64_at])
    (fun r k => by rw [Cert.ReferenceIdeal.Stages.spread_col, pair_col0, nrm_eq])

/-- The output layer. -/
theorem out_eq (h : FVec Ideal (⟨2, ![50000, 64]⟩ : Shape) .f32) (s d : IVec (⟨1, ![800000]⟩ : Shape) 32)
    (b : FVec Ideal (⟨1, ![64]⟩ : Shape) .f32) (W : FVec Ideal (⟨2, ![64, 10]⟩ : Shape) .f32) (bf : FVec Ideal (⟨1, ![10]⟩ : Shape) .f32) :
    Cert.ReferenceIdeal.Model.out h s d b W bf = Cert.KernelIdeal.Model.hout h s d b W bf := by
  unfold Cert.ReferenceIdeal.Model.out Cert.KernelIdeal.Model.hout Cert.ReferenceIdeal.Model.act Cert.ReferenceIdeal.Model.spread Cert.ReferenceIdeal.Model.spreadRow Cert.ReferenceIdeal.Model.spreadRow10
  rw [agg_eq]
  exact Cert.ReferenceIdeal.Stages.last_stage _ _ _ W _ (Cert.KernelIdeal.Model.pair s d) (Cert.KernelIdeal.Model.row64 b) (Cert.KernelIdeal.Model.row10 bf)
    (fun r k => by rw [Cert.ReferenceIdeal.Stages.spread_col, pair_col1, nrm_eq])
    (fun r k => by rw [Cert.ReferenceIdeal.Stages.spread_row64, row64_at])
    (fun r q => by rw [Cert.ReferenceIdeal.Stages.spread_row10, row10_at])

/-- The two programs' results are one function of the arguments. -/
theorem result_eq (x : FVec Ideal (⟨2, ![50000, 64]⟩ : Shape) .f32) (s d : IVec (⟨1, ![800000]⟩ : Shape) 32)
    (W1 : FVec Ideal (⟨2, ![64, 64]⟩ : Shape) .f32) (b1 : FVec Ideal (⟨1, ![64]⟩ : Shape) .f32)
    (W2 : FVec Ideal (⟨2, ![64, 64]⟩ : Shape) .f32) (b2 : FVec Ideal (⟨1, ![64]⟩ : Shape) .f32)
    (W3 : FVec Ideal (⟨2, ![64, 64]⟩ : Shape) .f32) (b3 : FVec Ideal (⟨1, ![64]⟩ : Shape) .f32)
    (Wfc : FVec Ideal (⟨2, ![64, 10]⟩ : Shape) .f32) (bfc : FVec Ideal (⟨1, ![10]⟩ : Shape) .f32) :
    Cert.ReferenceIdeal.Model.result x s d W1 b1 W2 b2 W3 b3 Wfc bfc = Cert.KernelIdeal.Model.result x s d W1 b1 W2 b2 W3 b3 Wfc bfc := by
  unfold Cert.ReferenceIdeal.Model.result Cert.KernelIdeal.Model.result
  rw [layer0_eq x s d W1, layerMid_eq, layerMid_eq, out_eq]

end Cert.Bridge

end
-- ==== Proof.lean ====
/-
  The certificate of a three-layer graph convolution computed by four kernel regions against its plain reference.

  Both programs compute, on the host, the inverse square roots of the source and destination degrees and, between the
  dense layers, the neighbour sum (rows gathered at the source indices, scattered and added at the destination indices).
  The dense layers are where they differ in form: the kernel program runs each as a kernel region over ten blocks of
  5000 node rows, reading the two norms as the columns of one pair table and the biases as one-row tables and rounding
  the matrix product's factors to a shorter format; the reference scales, adds, applies tanh and multiplies whole tables
  on the host. On extended reals rounding is the identity and a product into a zero accumulator is the plain sum, so
  each region's array is a row-by-row stage (`Proof/Spec.lean`) of the arrays the region finds (`Proof/Blocks0…3.lean`
  over the stored blocks of `Proof/Payload.lean`), the arrays a region finds are read back through the host stretches
  to the launch arguments (`Proof/Chain.lean`, over the run with its result named, `Proof/RunNamed.lean`), the
  reference's layers are the same stages (`Proof/RefStages.lean`), and the two compositions are one function of the
  arguments (`Proof/Bridge.lean`). The two results are equal term by term: no law of arithmetic beyond that, and no
  finiteness of the inputs, is used. The idealization rewrote nothing, so `preserves` asks nothing.
-/
import proofs.«171301_j45595372815203_1_alg».proof.Defs
import proofs.«171301_j45595372815203_1_alg».proof.Proof.Gen.Kernel
import proofs.«171301_j45595372815203_1_alg».proof.Proof.Gen.Kernel.Frame
import proofs.«171301_j45595372815203_1_alg».proof.Proof.Gen.KernelIdeal
import proofs.«171301_j45595372815203_1_alg».proof.Proof.Gen.KernelIdeal.Frame
import proofs.«171301_j45595372815203_1_alg».proof.Proof.Gen.ReferenceIdeal
import proofs.«171301_j45595372815203_1_alg».proof.Proof.Gen.Pre_finite_inputs
import proofs.«171301_j45595372815203_1_alg».proof.Proof.RunNamed
import proofs.«171301_j45595372815203_1_alg».proof.Proof.Chain
import proofs.«171301_j45595372815203_1_alg».proof.Proof.RefRunP
import proofs.«171301_j45595372815203_1_alg».proof.Proof.RefModel
import proofs.«171301_j45595372815203_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result array at the one composition of the arguments. -/
theorem algebraic : Cert.algebraic_KernelIdeal_ReferenceIdeal := by
  intro m ρ m' ρ' _ hagree
  refine ⟨fun c => Cert.KernelIdeal.Model.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Chain.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9, e10⟩ := hagree c
    rw [Cert.ReferenceIdeal.Model.res_eq, Cert.Bridge.result_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
